-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256 .f32) (main_arg6 : FVec F S256x64 .f32) (main_arg7 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x512 .f32) (main_arg1 : IVec S2x800000 32) (main_arg2 : FVec F S512x256 .f32) (main_arg3 : FVec F S256 .f32) (main_arg4 : FVec F S256x256 .f32) (main_arg5 : FVec F S256 .f32) (main_arg6 : FVec F S256x64 .f32) (main_arg7 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S100000x512 : Shape := ⟨2, ![100000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x256 : Shape := ⟨2, ![100000, 256]⟩
abbrev S2000x512 : Shape := ⟨2, ![2000, 512]⟩
abbrev S2000x256 : Shape := ⟨2, ![2000, 256]⟩
abbrev S800000x256 : Shape := ⟨2, ![800000, 256]⟩
abbrev S2000x1 : Shape := ⟨2, ![2000, 1]⟩
abbrev S1x256 : Shape := ⟨2, ![1, 256]⟩
abbrev S100000x64 : Shape := ⟨2, ![100000, 64]⟩
abbrev S2000x64 : Shape := ⟨2, ![2000, 64]⟩
abbrev S1x64 : Shape := ⟨2, ![1, 64]⟩

abbrev nBuf : Space → Nat
  | .hbm => 92
  | .vmem => 34
  | .smem => 0
  | _ => 0

abbrev bufTy : (tb : Table) → Fin (tcTables nBuf tb) → BufTy
  | .hbm, ⟨0, _⟩ => ⟨S100000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S800000x1, .f32⟩
  | .hbm, ⟨49, _⟩ => ⟨S100000, .f32⟩
  | .hbm, ⟨50, _⟩ => ⟨S100000x1, .f32⟩
  | .hbm, ⟨51, _⟩ => ⟨S100000x512, .bf16⟩
  | .hbm, ⟨52, _⟩ => ⟨S512x256, .bf16⟩
  | .hbm, ⟨53, _⟩ => ⟨S100000x256, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x256, .f32⟩
  | .hbm, ⟨63, _⟩ => ⟨S800000x256, .f32⟩
  | .hbm, ⟨64, _⟩ => ⟨S800000x256, .f32⟩
  | .hbm, ⟨65, _⟩ => ⟨S_, .f32⟩
  | .hbm, ⟨66, _⟩ => ⟨S100000x256, .f32⟩
  | .hbm, ⟨67, _⟩ => ⟨S800000x1, .i32⟩
  | .hbm, ⟨68, _⟩ => ⟨S100000x256, .f32⟩
  | .hbm, ⟨69, _⟩ => ⟨S100000x256, .f32⟩
  | .hbm, ⟨70, _⟩ => ⟨S100000x256, .bf16⟩
  | .hbm, ⟨71, _⟩ => ⟨S256x256, .bf16⟩
  | .hbm, ⟨72, _⟩ => ⟨S100000x256, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x256, .f32⟩
  | .hbm, ⟨82, _⟩ => ⟨S800000x256, .f32⟩
  | .hbm, ⟨83, _⟩ => ⟨S800000x256, .f32⟩
  | .hbm, ⟨84, _⟩ => ⟨S_, .f32⟩
  | .hbm, ⟨85, _⟩ => ⟨S100000x256, .f32⟩
  | .hbm, ⟨86, _⟩ => ⟨S800000x1, .i32⟩
  | .hbm, ⟨87, _⟩ => ⟨S100000x256, .f32⟩
  | .hbm, ⟨88, _⟩ => ⟨S100000x256, .f32⟩
  | .hbm, ⟨89, _⟩ => ⟨S100000x256, .bf16⟩
  | .hbm, ⟨90, _⟩ => ⟨S256x64, .bf16⟩
  | .hbm, ⟨91, _⟩ => ⟨S100000x64, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S256, .f32⟩
  | .local _ .vmem, ⟨12, _⟩ => ⟨S2000x256, .f32⟩
  | .local _ .vmem, ⟨13, _⟩ => ⟨S2000x256, .f32⟩
  | .local _ .vmem, ⟨14, _⟩ => ⟨S2000x256, .bf16⟩
  | .local _ .vmem, ⟨15, _⟩ => ⟨S2000x256, .bf16⟩
  | .local _ .vmem, ⟨16, _⟩ => ⟨S256x256, .bf16⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S256, .f32⟩
  | .local _ .vmem, ⟨26, _⟩ => ⟨S2000x256, .f32⟩
  | .local _ .vmem, ⟨27, _⟩ => ⟨S2000x256, .f32⟩
  | .local _ .vmem, ⟨28, _⟩ => ⟨S2000x256, .bf16⟩
  | .local _ .vmem, ⟨29, _⟩ => ⟨S2000x256, .bf16⟩
  | .local _ .vmem, ⟨30, _⟩ => ⟨S256x64, .bf16⟩
  | .local _ .vmem, ⟨31, _⟩ => ⟨S64, .f32⟩
  | .local _ .vmem, ⟨32, _⟩ => ⟨S2000x64, .f32⟩
  | .local _ .vmem, ⟨33, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S_S800000 : S_.BroadcastsInDim S800000 (![] : Fin 0 → Fin S800000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  inb_S256_S256_0 : ∀ a, (![0] : Fin 1 → Nat) a + S256.size a ≤ S256.size a
  h_S256 : 0 < S256.numel
  shapeCasts_S256_S1x256 : S256.ShapeCasts S1x256
  shapeCasts_S1x256_S1x256 : S1x256.ShapeCasts S1x256
  broadcasts_S1x256_S2000x256 : S1x256.Broadcasts S2000x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S2000x512_S512x256_S2000x256_1_0_0_1_n_n_wf : DotDims.WF S2000x512 S512x256 S2000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .bf16 = 32 ∨ (Rect.block (s := S100000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .bf16 = 32 ∨ (Rect.block (s := S100000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256.size a ≤ S256.size a
  hwx3_3 : ∀ i : grid3.Coords, EltTy.bits .f32 = 32 ∨ (Rect.block (s := S256) S256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S100000x256.size a
  hwx3_4 : ∀ i : grid3.Coords, EltTy.bits .f32 = 32 ∨ (Rect.block (s := S100000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .bf16 = 32 ∨ (Rect.block (s := S100000x256) S2000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x64.size a ≤ S256x64.size a
  hwx4_1 : ∀ i : grid4.Coords, EltTy.bits .bf16 = 32 ∨ (Rect.block (s := S256x64) S256x64.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S100000x64.size a
  hwx4_3 : ∀ i : grid4.Coords, EltTy.bits .f32 = 32 ∨ (Rect.block (s := S100000x64) S2000x64.size (cc4_transform_3 i) (hinb4_3 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v34) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v66) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S256x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x512 : Shape := ⟨2, ![100000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x256 : Shape := ⟨2, ![100000, 256]⟩
abbrev S800000x256 : Shape := ⟨2, ![800000, 256]⟩
abbrev S1x256 : Shape := ⟨2, ![1, 256]⟩
abbrev S100000x64 : Shape := ⟨2, ![100000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S100000, .f32⟩
  | .hbm, ⟨49, _⟩ => ⟨S100000x1, .f32⟩
  | .hbm, ⟨50, _⟩ => ⟨S100000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S800000x1, .f32⟩
  | .hbm, ⟨61, _⟩ => ⟨S800000x256, .f32⟩
  | .hbm, ⟨62, _⟩ => ⟨S800000x256, .f32⟩
  | .hbm, ⟨63, _⟩ => ⟨S_, .f32⟩
  | .hbm, ⟨64, _⟩ => ⟨S100000x256, .f32⟩
  | .hbm, ⟨65, _⟩ => ⟨S800000x1, .i32⟩
  | .hbm, ⟨66, _⟩ => ⟨S100000x256, .f32⟩
  | .hbm, ⟨67, _⟩ => ⟨S100000x256, .f32⟩
  | .hbm, ⟨68, _⟩ => ⟨S100000x256, .f32⟩
  | .hbm, ⟨69, _⟩ => ⟨S100000x256, .f32⟩
  | .hbm, ⟨70, _⟩ => ⟨S1x256, .f32⟩
  | .hbm, ⟨71, _⟩ => ⟨S100000x256, .f32⟩
  | .hbm, ⟨72, _⟩ => ⟨S100000x256, .f32⟩
  | .hbm, ⟨73, _⟩ => ⟨S_, .f32⟩
  | .hbm, ⟨74, _⟩ => ⟨S100000x256, .f32⟩
  | .hbm, ⟨75, _⟩ => ⟨S100000x256, .f32⟩
  | .hbm, ⟨76, _⟩ => ⟨S100000x256, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x256, .f32⟩
  | .hbm, ⟨86, _⟩ => ⟨S800000x1, .f32⟩
  | .hbm, ⟨87, _⟩ => ⟨S800000x256, .f32⟩
  | .hbm, ⟨88, _⟩ => ⟨S800000x256, .f32⟩
  | .hbm, ⟨89, _⟩ => ⟨S_, .f32⟩
  | .hbm, ⟨90, _⟩ => ⟨S100000x256, .f32⟩
  | .hbm, ⟨91, _⟩ => ⟨S800000x1, .i32⟩
  | .hbm, ⟨92, _⟩ => ⟨S100000x256, .f32⟩
  | .hbm, ⟨93, _⟩ => ⟨S100000x256, .f32⟩
  | .hbm, ⟨94, _⟩ => ⟨S100000x256, .f32⟩
  | .hbm, ⟨95, _⟩ => ⟨S100000x256, .f32⟩
  | .hbm, ⟨96, _⟩ => ⟨S1x256, .f32⟩
  | .hbm, ⟨97, _⟩ => ⟨S100000x256, .f32⟩
  | .hbm, ⟨98, _⟩ => ⟨S100000x256, .f32⟩
  | .hbm, ⟨99, _⟩ => ⟨S_, .f32⟩
  | .hbm, ⟨100, _⟩ => ⟨S100000x256, .f32⟩
  | .hbm, ⟨101, _⟩ => ⟨S100000x256, .f32⟩
  | .hbm, ⟨102, _⟩ => ⟨S100000x64, .f32⟩
  | .hbm, ⟨103, _⟩ => ⟨S1x64, .f32⟩
  | .hbm, ⟨104, _⟩ => ⟨S100000x64, .f32⟩
  | .hbm, ⟨105, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call1_cst : Ref sig .tc := ⟨.hbm, 99, rfl⟩
abbrev main_call1_v0 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S100000 : S_.BroadcastsInDim S100000 (![] : Fin 0 → Fin S100000.rank)
  bcast_S_S800000 : S_.BroadcastsInDim S800000 (![] : Fin 0 → Fin S800000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S100000x512_S512x256_S100000x256_1_0_0_1_n_n_wf : DotDims.WF S100000x512 S512x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.Spec.lean ====
/-
  The network both programs compute, as ONE function of the argument arrays, over the extended reals.

  A graph-convolution network of two layers and a linear head on N = 100000 nodes and E = 800000 edges. From the edge
  list (row 0 the sources, row 1 the destinations, a negative entry wrapped by N) the degree of a node is one more than
  the number of edges that arrive at it, `dinv = deg^(-1/2)`; an edge weighs `dinv[src] · dinv[dst]` and a node's own
  row weighs `dinv²`. A layer takes `h` to `max (agg + t · dinv² + b, 0)` where `t = h · W` and `agg` sums, into each
  destination row, the source rows of `t` times the edge weights. The head is `h · Wc + bc`.

  Every step is written with the host's operation of the whole arrays (a gather, a scatter-add, a `dot_general`, a
  broadcast), so that a program which takes these steps in this order has this function as its value by unfolding
  alone, and only the steps a kernel computes tile by tile need to be read index by index.
-/
import proofs.«117510_j52836687675718_1_alg».proof.ReferenceIdeal
import Idealize.ShloMosaic.PureOps.Ideal

noncomputable section

namespace Cert.Gcn

open Idealize.ShloMosaic Cert.ReferenceIdeal Cert.ReferenceIdeal.Facts₀

variable [Cert.ReferenceIdeal.Facts]

/-- Arrays of extended reals and of 32-bit integers, by shape. -/
abbrev RA (s : Shape) : Type := FVec Ideal s .f32
abbrev IA (s : Shape) : Type := IVec s 32

/-- Row 0 of the edge list: the sources. -/
def edgeSrc (ei : IA S2x800000) : IA S800000 :=
  shapeCast S800000 (extractStridedSlice S1x800000 ![0, 0] ei slices_S2x800000_S1x800000_0_0) shapeCasts_S1x800000_S800000

/-- Row 1 of the edge list: the destinations. -/
def edgeDst (ei : IA S2x800000) : IA S800000 :=
  shapeCast S800000 (extractStridedSlice S1x800000 ![1, 0] ei slices_S2x800000_S1x800000_1_0) shapeCasts_S1x800000_S800000

/-- Node numbers as a column of start indices, a negative number counted from the end (N added). -/
def wrapCol (v : IA S800000) : IA S800000x1 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 100000#32))) v)

/-- `deg^(-1/2)`: one for the node itself plus one per arriving edge, then the inverse square root. -/
def dinv (ei : IA S2x800000) : RA S100000 :=
  Host.rsqrt (addf
    (Host.scatterAdd scatter_S100000_S800000x1_S800000_n_0_0_1
      (broadcastInDim S100000 ![] bcast_S_S100000 (constant (F := Ideal) S_ .f32 0x00000000#32))
      (wrapCol (edgeDst ei))
      (broadcastInDim S800000 ![] bcast_S_S800000 (constant (F := Ideal) S_ .f32 0x3F800000#32)))
    (broadcastInDim S100000 ![] bcast_S_S100000 (constant (F := Ideal) S_ .f32 0x3F800000#32)))

/-- The weight of each edge, `dinv[src] · dinv[dst]`. -/
def edgeW (ei : IA S2x800000) : RA S800000 :=
  mulf (Host.gather gather_S100000_S800000x1_S800000_n_0_n_n_0_1_1 (dinv ei) (wrapCol (edgeSrc ei)))
    (Host.gather gather_S100000_S800000x1_S800000_n_0_n_n_0_1_1 (dinv ei) (wrapCol (edgeDst ei)))

/-- The edge weights as a column. -/
def edgeCol (ei : IA S2x800000) : RA S800000x1 :=
  broadcastInDim S800000x1 ![0] bcast_S800000_S800000x1_0 (edgeW ei)

/-- The weight of each node's own row, `dinv²`, as a column. -/
def selfCol (ei : IA S2x800000) : RA S100000x1 :=
  broadcastInDim S100000x1 ![0] bcast_S100000_S100000x1_0 (mulf (dinv ei) (dinv ei))

/-- The aggregation: into each destination row, the sum of the source rows of `t` times the edge weights. -/
def agg (ei : IA S2x800000) (t : RA S100000x256) : RA S100000x256 :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 (edgeDst ei))
    (mulf (Host.gather gather_S100000x256_S800000x1_S800000x256_1_0_n_n_0_1_1256 t (wrapCol (edgeSrc ei)))
      (broadcastInDim S800000x256 ![0, 1] bcast_S800000x1_S800000x256_0_1 (edgeCol ei)))

/-- The end of a layer: `max (a + t · sc + b, 0)`, the column `sc` along the rows and the vector `b` along the
    columns. -/
def combine (a t : RA S100000x256) (sc : RA S100000x1) (b : RA S256) : RA S100000x256 :=
  maximumf
    (addf (addf a (mulf t (broadcastInDim S100000x256 ![0, 1] bcast_S100000x1_S100000x256_0_1 sc)))
      (broadcastInDim S100000x256 ![0, 1] bcast_S1x256_S100000x256_0_1 (broadcastInDim S1x256 ![1] bcast_S256_S1x256_1 b)))
    (broadcastInDim S100000x256 ![] bcast_S_S100000x256 (constant (F := Ideal) S_ .f32 0x00000000#32))

/-- The three matrix products. -/
def dotIn (x : RA S100000x512) (w : RA S512x256) : RA S100000x256 :=
  Host.dotGeneral dot_S100000x512_S512x256_S100000x256_1_0_0_1_n_n none x w
def dotHid (h : RA S100000x256) (w : RA S256x256) : RA S100000x256 :=
  Host.dotGeneral dot_S100000x256_S256x256_S100000x256_1_0_0_1_n_n none h w
def dotOut (h : RA S100000x256) (w : RA S256x64) : RA S100000x64 :=
  Host.dotGeneral dot_S100000x256_S256x64_S100000x64_1_0_0_1_n_n none h w

/-- The head: the product plus the bias along the columns. -/
def head (h : RA S100000x256) (w : RA S256x64) (b : RA S64) : RA S100000x64 :=
  addf (dotOut h w)
    (broadcastInDim S100000x64 ![0, 1] bcast_S1x64_S100000x64_0_1 (broadcastInDim S1x64 ![1] bcast_S64_S1x64_1 b))

/-- A layer from the transformed rows `t = h · W`. -/
def layer (ei : IA S2x800000) (t : RA S100000x256) (b : RA S256) : RA S100000x256 :=
  combine (agg ei t) t (selfCol ei) b

/-- The network. -/
def net (x : RA S100000x512) (ei : IA S2x800000) (w1 : RA S512x256) (b1 : RA S256) (w2 : RA S256x256) (b2 : RA S256)
    (wc : RA S256x64) (bc : RA S64) : RA S100000x64 :=
  head (layer ei (dotHid (layer ei (dotIn x w1) b1) w2) b2) wc bc

end Cert.Gcn

end
-- ==== Proof.KernelRun.lean ====
/-
  The kernel program's run with its result named.

  The program is five tiled regions among stretches of host operations. Every weakly fair execution ends with each
  unscoped buffer at the contents of the last boundary of that chain: the result buffer at what the last region's
  write-backs leave in it, the argument arrays as launched. The chain of boundary contents and the segments are the
  generated frame's; this restates its conclusion with the result buffer kept.
-/
import proofs.«117510_j52836687675718_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v68) = W10 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v68 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Run

end
-- ==== Proof.Keeps.lean ====
/-
  What the host stretches and the regions of the kernel program leave unchanged.

  The program alternates stretches of host operations with tiled regions; the contents of the buffers at the boundaries
  form a chain from the launch memory. A buffer that a stretch does not write holds after the stretch what it held
  before it, and a buffer that is none of a region's arrays holds after the region what it held at its entry; an array
  that a region only reads keeps its contents as well. These one-step facts carry a value computed early in the program
  (the edge lists, the weights, an argument array) to the later place that reads it.
-/
import proofs.«117510_j52836687675718_1_alg».proof.Proof.Gen.KernelIdeal.Frame

set_option maxRecDepth 16384

noncomputable section

namespace Cert.KernelIdeal.Chain

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The buffers each stretch writes -/

/-- The buffers the operations of stretch 0 write. -/
abbrev written0 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_cst, main_c, main_c_0, main_cst_1, main_cst_2, main_c_3, main_c_4, main_c_5, main_c_6]
theorem hostOps0_writes : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of stretch 1 write. -/
abbrev written1 : List (Ref sig .tc) := [main_c_7, main_c_8, main_cst_9, main_v37, main_v38, main_v39, main_v40, main_v41, main_v42, main_v43, main_v44, main_v45, main_v46, main_v47, main_v48]
theorem hostOps1_writes : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of stretch 2 write. -/
abbrev written2 : List (Ref sig .tc) := [main_v50, main_v51]
theorem hostOps2_writes : (hostOps2 : List (HloOp τ sig (Elt F))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of stretch 3 write. -/
abbrev written3 : List (Ref sig .tc) := [main_c_10, main_c_11, main_cst_12, main_v53, main_v54, main_v55, main_v56, main_v57, main_v58, main_v59, main_v60, main_v61, main_v62, main_v63, main_v64]
theorem hostOps3_writes : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The buffers the operations of stretch 4 write. -/
abbrev written4 : List (Ref sig .tc) := [main_v66, main_v67]
theorem hostOps4_writes : (hostOps4 : List (HloOp τ sig (Elt F))).Forall fun op => op.writes ⊆ (written4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## One step of the chain, at a buffer the step does not touch -/

/-- A buffer stretch 0 does not write holds at the first region's entry what it held at launch. -/
theorem W1_of (c : Dev nD) (r : Ref sig .tc) (h : r ∉ written0) : W1 m ρ c (Proc.devRef .tc r) = m ((c : Thread nD τ).loc r) :=
  (StableHlo.after_of_writes_sub hostOps0 _ hostOps0_writes h).trans rfl
theorem W3_of (c : Dev nD) (r : Ref sig .tc) (h : r ∉ written1) : W3 m ρ c (Proc.devRef .tc r) = W2 m ρ c (Proc.devRef .tc r) :=
  StableHlo.after_of_writes_sub hostOps1 _ hostOps1_writes h
theorem W5_of (c : Dev nD) (r : Ref sig .tc) (h : r ∉ written2) : W5 m ρ c (Proc.devRef .tc r) = W4 m ρ c (Proc.devRef .tc r) :=
  StableHlo.after_of_writes_sub hostOps2 _ hostOps2_writes h
theorem W7_of (c : Dev nD) (r : Ref sig .tc) (h : r ∉ written3) : W7 m ρ c (Proc.devRef .tc r) = W6 m ρ c (Proc.devRef .tc r) :=
  StableHlo.after_of_writes_sub hostOps3 _ hostOps3_writes h
theorem W9_of (c : Dev nD) (r : Ref sig .tc) (h : r ∉ written4) : W9 m ρ c (Proc.devRef .tc r) = W8 m ρ c (Proc.devRef .tc r) :=
  StableHlo.after_of_writes_sub hostOps4 _ hostOps4_writes h

/-- The per-node weights column is an array region 1 only reads: it leaves the region as it entered. -/
theorem W4_selfCol (c : Dev nD) : W4 m ρ c (Proc.devRef .tc main_v33) = W3 m ρ c (Proc.devRef .tc main_v33) :=
  (W4_arr m ρ c 2).trans (((dat1 (V3 m ρ) c).arrAt_in 2 rfl _).trans (A_eq1 (V3 m ρ) c 2))

/-! ## The argument arrays at the places that read them -/

theorem W3_arg3 (c : Dev nD) : W3 m ρ c (Proc.devRef .tc main_arg3) = m ((c : Thread nD τ).loc main_arg3) :=
  (W3_of m ρ c main_arg3 (by decide)).trans ((W2_of_ne m ρ c main_arg3 (by decide)).trans (W1_of m ρ c main_arg3 (by decide)))

theorem W4_arg (c : Dev nD) (r : Ref sig .tc) (h0 : r ∉ written0) (a0 : ∀ w, Pipeline.arrRef spec0 w ≠ r) (h1 : r ∉ written1)
    (a1 : ∀ w, Pipeline.arrRef spec1 w ≠ r) : W4 m ρ c (Proc.devRef .tc r) = m ((c : Thread nD τ).loc r) :=
  (W4_of_ne m ρ c r a1).trans ((W3_of m ρ c r h1).trans ((W2_of_ne m ρ c r a0).trans (W1_of m ρ c r h0)))

theorem W6_arg (c : Dev nD) (r : Ref sig .tc) (h0 : r ∉ written0) (a0 : ∀ w, Pipeline.arrRef spec0 w ≠ r) (h1 : r ∉ written1)
    (a1 : ∀ w, Pipeline.arrRef spec1 w ≠ r) (h2 : r ∉ written2) (a2 : ∀ w, Pipeline.arrRef spec2 w ≠ r) :
    W6 m ρ c (Proc.devRef .tc r) = m ((c : Thread nD τ).loc r) :=
  (W6_of_ne m ρ c r a2).trans ((W5_of m ρ c r h2).trans (W4_arg m ρ c r h0 a0 h1 a1))

theorem W8_arg (c : Dev nD) (r : Ref sig .tc) (h0 : r ∉ written0) (a0 : ∀ w, Pipeline.arrRef spec0 w ≠ r) (h1 : r ∉ written1)
    (a1 : ∀ w, Pipeline.arrRef spec1 w ≠ r) (h2 : r ∉ written2) (a2 : ∀ w, Pipeline.arrRef spec2 w ≠ r) (h3 : r ∉ written3)
    (a3 : ∀ w, Pipeline.arrRef spec3 w ≠ r) : W8 m ρ c (Proc.devRef .tc r) = m ((c : Thread nD τ).loc r) :=
  (W8_of_ne m ρ c r a3).trans ((W7_of m ρ c r h3).trans (W6_arg m ρ c r h0 a0 h1 a1 h2 a2))

/-! ## The values of stretch 0 at the later places that read them -/

/-- A buffer stretch 0 wrote that nothing later writes and that is no array of regions 0, 1 and 2 holds at region 3's
    stretch what it held at region 0's entry. -/
theorem W6_early (c : Dev nD) (r : Ref sig .tc) (a0 : ∀ w, Pipeline.arrRef spec0 w ≠ r) (h1 : r ∉ written1)
    (a1 : ∀ w, Pipeline.arrRef spec1 w ≠ r) (h2 : r ∉ written2) (a2 : ∀ w, Pipeline.arrRef spec2 w ≠ r) :
    W6 m ρ c (Proc.devRef .tc r) = W1 m ρ c (Proc.devRef .tc r) :=
  (W6_of_ne m ρ c r a2).trans ((W5_of m ρ c r h2).trans ((W4_of_ne m ρ c r a1).trans ((W3_of m ρ c r h1).trans (W2_of_ne m ρ c r a0))))

/-- The per-node weights column from region 0's entry to region 3's. -/
theorem W7_selfCol (c : Dev nD) : W7 m ρ c (Proc.devRef .tc main_v33) = W1 m ρ c (Proc.devRef .tc main_v33) :=
  (W7_of m ρ c main_v33 (by decide)).trans ((W6_of_ne m ρ c main_v33 (by decide)).trans ((W5_of m ρ c main_v33 (by decide)).trans
    ((W4_selfCol m ρ c).trans ((W3_of m ρ c main_v33 (by decide)).trans (W2_of_ne m ρ c main_v33 (by decide))))))

end Cert.KernelIdeal.Chain

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.RegionDotIn.lean ====
/-
  Region 0: the first product, tile by tile.

  The region has 50 grid points. Point t multiplies rows 2000·t … 2000·t+1999 of the left operand (a [2000, 512] block)
  by the whole right operand ([512, 256], the same block at every point) into a zero accumulator and writes the
  [2000, 256] result to the same rows of the output. Entry (2000·t+p, q) of the output is therefore
  ∑ k, X(2000·t+p, k) · W(k, q), which is the entry of the whole-array product at that place; the 50 row blocks
  tile the 100000 rows, so the output array is the whole-array product.
-/
import proofs.«117510_j52836687675718_1_alg».proof.Proof.Gen.KernelIdeal.Frame
import proofs.«117510_j52836687675718_1_alg».proof.Proof.Spec
import proofs.«117510_j52836687675718_1_alg».proof.Proof.Gen.ReferenceIdeal.Read
import proofs.«117510_j52836687675718_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.KernelIdeal.RegionDotIn

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, as the constant function. -/
theorem zero_offsets : (![0, 0] : Fin 2 → Nat) = fun _ => 0 := funext fun a => by fin_cases a <;> rfl

/-! ## Where the tile's dimension numbers read their operands -/

/-- The left operand is read at the output's row … -/
theorem tile_lhs_row (i : S2000x256.Idx) (k : dot_S2000x512_S512x256_S2000x256_1_0_0_1_n_n.contr.Idx) :
    (dot_S2000x512_S512x256_S2000x256_1_0_0_1_n_n.lhsIdx i k 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- … and the contracted column, -/
theorem tile_lhs_col (i : S2000x256.Idx) (k : dot_S2000x512_S512x256_S2000x256_1_0_0_1_n_n.contr.Idx) :
    (dot_S2000x512_S512x256_S2000x256_1_0_0_1_n_n.lhsIdx i k 1).val = (k ⟨0, by decide⟩).val :=
  dot_S2000x512_S512x256_S2000x256_1_0_0_1_n_n.lhsIdx_val_of_single rfl i k
/-- the right operand at the contracted row … -/
theorem tile_rhs_row (i : S2000x256.Idx) (k : dot_S2000x512_S512x256_S2000x256_1_0_0_1_n_n.contr.Idx) :
    (dot_S2000x512_S512x256_S2000x256_1_0_0_1_n_n.rhsIdx i k 0).val = (k ⟨0, by decide⟩).val :=
  dot_S2000x512_S512x256_S2000x256_1_0_0_1_n_n.rhsIdx_val_of_single rfl i k
/-- … and the output's column. -/
theorem tile_rhs_col (i : S2000x256.Idx) (k : dot_S2000x512_S512x256_S2000x256_1_0_0_1_n_n.contr.Idx) :
    (dot_S2000x512_S512x256_S2000x256_1_0_0_1_n_n.rhsIdx i k 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-! ## The two products at an entry -/

/-- What a point stores, at entry (p, q) of its block: the sum over the 512 contracted places of the products of the
    left block's row p and the right block's column q. -/
theorem tile_apply (x : Vec Ideal S2000x512 .bf16) (w : Vec Ideal S512x256 .bf16) (p : Fin 2000) (q : Fin 256) :
    k0_pay1 (F := Ideal) x w (ix2 p q) = ∑ k : Fin 512, x (ix2 p k) * w (ix2 k q) := by
  unfold k0_pay1
  simp only [shapeCast_self]
  exact Cert.LibDotPlain.matmul_zero_plain dot_S2000x512_S512x256_S2000x256_1_0_0_1_n_n rfl rfl
    tile_lhs_row tile_lhs_col tile_rhs_row tile_rhs_col none x w p q

/-- The whole-array product at entry (r, q): the same sum over the whole arrays' row r and column q. -/
theorem dotIn_apply (x : Cert.Gcn.RA Cert.ReferenceIdeal.S100000x512) (w : Cert.Gcn.RA Cert.ReferenceIdeal.S512x256)
    (r : Fin 100000) (q : Fin 256) :
    Cert.Gcn.dotIn x w (ix2 r q) = ∑ k : Fin 512, x (ix2 r k) * w (ix2 k q) := by
  unfold Cert.Gcn.dotIn
  simp only [Host.dotGeneral]
  rw [Ideal.dotGeneral_apply]
  exact Cert.LibDotPlain.sum_contr_plain Cert.ReferenceIdeal.dot_S100000x512_S512x256_S100000x256_1_0_0_1_n_n rfl rfl
    Cert.ReferenceIdeal.Read.lhs_main_v33_0 Cert.ReferenceIdeal.Read.lhs_main_v33_1
    Cert.ReferenceIdeal.Read.rhs_main_v33_0 Cert.ReferenceIdeal.Read.rhs_main_v33_1 x w r q

-- the buffers as a region finds them: any contents
variable (V : (c : Dev nD) → (b : Ref sig .tc) → Buf (Elt Ideal) ((c : Thread nD τ).loc b))

/-! ## From blocks to the array -/

/-- The printed index maps over the 50 grid points: at point t the left operand's and the output's blocks are row
    block t (column block 0), the right operand's block is always block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000·t … 2000·t+1999 of the array: entry (p, k) of the block is entry
    (2000·t+p, k) of the array. -/
theorem left_block_apply (c : Dev nD) (t : Fin cfg0.N) (p : Fin 2000) (k : Fin 512) (r : Fin 100000)
    (hr : r.val = 2000 * t.val + p.val) :
    (iblk0 V c 0 t : Vec Ideal S2000x512 .bf16) (ix2 p k) = V c main_v34 (ix2 r k) := by
  obtain ⟨e0, e1, -⟩ := index_facts t
  unfold iblk0
  rw [View.read_apply]
  show V c main_v34 _ = V c main_v34 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The right operand's block at every point is the whole array. -/
theorem right_block_apply (c : Dev nD) (t : Fin cfg0.N) (k : Fin 512) (q : Fin 256) :
    (iblk0 V c 1 t : Vec Ideal S512x256 .bf16) (ix2 k q) = V c main_v35 (ix2 k q) := by
  obtain ⟨-, -, e2, e3, -⟩ := index_facts t
  unfold iblk0
  rw [View.read_apply]
  show V c main_v35 _ = V c main_v35 _
  congr 1
  funext a
  apply Fin.ext
  match a with
  | ⟨0, _⟩ => show win0_1.index t (0 : Fin 2) * 512 + 1 * k.val = k.val; rw [e2]; omega
  | ⟨1, _⟩ => show win0_1.index t (1 : Fin 2) * 256 + 1 * q.val = q.val; rw [e3]; omega

/-- What point t writes back is row block t of the whole-array product: entry (p, q) of the stored tile is the sum
    over k of X(2000·t+p, k) · W(k, q), which is entry (2000·t+p, q) of the product. -/
theorem flushed_eq (c : Dev nD) (t : Fin cfg0.N) :
    (dat0 (F := Ideal) V c).flushed 2 t
      = ((cfg0.win 2).blk t).view.read (Elt Ideal) (Cert.Gcn.dotIn (V c main_v34) (V c main_v35)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x256) zero_offsets]
  funext j
  obtain ⟨p, q, rfl⟩ : ∃ (p : Fin 2000) (q : Fin 256), j = ix2 p q := ⟨j 0, j 1, eq_ix2 j⟩
  have ht : t.val < 50 := t.isLt
  obtain ⟨-, -, -, -, e4, e5⟩ := index_facts t
  have hemb : ((cfg0.win 2).blk t).view.emb (ix2 p q) = ix2 (⟨2000 * t.val + p.val, by omega⟩ : Fin 100000) q := by
    funext a
    apply Fin.ext
    match a with
    | ⟨0, _⟩ => show win0_2.index t (0 : Fin 2) * 2000 + 1 * p.val = 2000 * t.val + p.val; rw [e4]; omega
    | ⟨1, _⟩ => show win0_2.index t (1 : Fin 2) * 256 + 1 * q.val = q.val; rw [e5]; omega
  show k0_pay1 (iblk0 V c 0 t) (iblk0 V c 1 t) (ix2 p q)
    = Cert.Gcn.dotIn (V c main_v34) (V c main_v35) (((cfg0.win 2).blk t).view.emb (ix2 p q))
  rw [hemb]
  refine (tile_apply _ _ p q).trans ?_
  rw [dotIn_apply]
  refine Finset.sum_congr rfl fun k _ => ?_
  rw [left_block_apply V c t p k ⟨2000 * t.val + p.val, by omega⟩ rfl, right_block_apply V c t k q]

/-- An entry of the array is in point t's block iff each coordinate is in the block's range on its axis. -/
theorem mem_block (t : Fin cfg0.N) (i : S100000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v36).slice (win0_2.rect t)).set ↔ _
  rw [View.set_slice_whole, Rect.mem_set_unit]
  exact Iff.rfl

/-- The 50 row blocks tile the array: row r is in the block of point r / 2000. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hlt : (i 0).val / 2000 < 50 := by omega
  obtain ⟨-, -, -, -, e4, e5⟩ := index_facts ⟨(i 0).val / 2000, hlt⟩
  refine ⟨⟨(i 0).val / 2000, hlt⟩, flush0_2 _, ?_⟩
  rw [mem_block]
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, hlt⟩ (1 : Fin 2) * 256 ≤ (i 1).val
      ∧ (i 1).val < win0_2.index ⟨(i 0).val / 2000, hlt⟩ (1 : Fin 2) * 256 + 256
    rw [e5]; omega

/-- After the region the output array is the whole-array product of the two input arrays. -/
theorem final (c : Dev nD) :
    (dat0 (F := Ideal) V c).arrAt 2 cfg0.N = Cert.Gcn.dotIn (V c main_v34) (V c main_v35) :=
  (dat0 (F := Ideal) V c).arrAt_eq_of_cover 2 _ (fun t _ => flushed_eq V c t) cover

end Cert.KernelIdeal.RegionDotIn

end
-- ==== Proof.RegionLayer1.lean ====
/-
  Region 1: the end of the first layer, tile by tile.

  The region's grid has 50 points; point t works on rows 2000 t to 2000 t + 1999 of arrays of 100000 rows and 256
  columns. Its body takes the tile of the aggregated rows a, the tile of the transformed rows h, the tile's column sc
  of row weights and the whole bias vector b, and stores max (a + h · sc + b, 0), the column stretched along the
  columns and the vector along the rows. Entry (p, q) of what it stores depends on row p of the tiles only, that is on
  row 2000 t + p of the arrays, and is the entry (2000 t + p, q) of the same expression taken over the whole arrays.
  The 50 blocks tile the output array, so after the region the output array is that whole-array function.
-/
import proofs.«117510_j52836687675718_1_alg».proof.Proof.Gen.KernelIdeal.Frame
import proofs.«117510_j52836687675718_1_alg».proof.Proof.Spec
import proofs.«117510_j52836687675718_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionLayer1

open Cert.KernelIdeal Cert.KernelIdeal.Gen Idealize.ShloMosaic Idealize.ShloMosaic.TcCoe Idealize.SL.Sem
open Idealize.ShloMosaic.Pipeline (Dat)
open Idealize.ShloMosaic.ValueIdx

-- the buffers as a region finds them: any contents
variable (V : (c : Dev nD) → (b : Ref sig .tc) → Buf (Elt Ideal) ((c : Thread nD τ).loc b))

/-! ## One entry of the stored tile, and one entry of the whole-array function -/

/-- A column of shape [a, 1] stretched along the columns reads, at (p, q), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- What the body stores, entry by entry: at row p and column q of the tile, the larger of zero and
    a(p, q) + h(p, q) · sc(p) + b(q), where a and h are the two tiles of 2000 rows, sc the tile's column of row
    weights and b the bias vector. An entry depends on row p of the tiles only. -/
theorem pay_apply (b : Vec Ideal S256 .f32) (a h : Vec Ideal S2000x256 .f32) (sc : Vec Ideal S2000x1 .f32)
    (p : Fin 2000) (q : Fin 256) :
    k1_pay1 (F := Ideal) b a h sc (ix2 p q)
      = max ((a (ix2 p q) + h (ix2 p q) * sc (ix2 p (0 : Fin 1))) + b (ix1 q)) (Ideal.ofBits .f32 0x00000000#32) := by
  unfold k1_pay1
  simp only [shapeCast_self]
  show max ((a (ix2 p q) + h (ix2 p q) * broadcastTo S2000x256 sc broadcasts_S2000x1_S2000x256 (ix2 p q))
      + broadcastTo S2000x256 (shapeCast S1x256 b shapeCasts_S256_S1x256) broadcasts_S1x256_S2000x256 (ix2 p q)) _ = _
  rw [broadcastTo_a1_ab_apply sc broadcasts_S2000x1_S2000x256 p q,
    broadcastTo_1b_ab_apply (shapeCast S1x256 b shapeCasts_S256_S1x256) broadcasts_S1x256_S2000x256 p q,
    shapeCast_a_1a_apply b shapeCasts_S256_S1x256 (0 : Fin 1) q]
  rfl

/-- The end of a layer as a function of the whole arrays, entry by entry: at row r and column q, the larger of
    zero and a(r, q) + h(r, q) · sc(r) + b(q). An entry depends on row r of the arrays only. -/
theorem combine_apply (a h : Cert.Gcn.RA S100000x256) (sc : Cert.Gcn.RA S100000x1) (b : Cert.Gcn.RA S256)
    (r : Fin 100000) (q : Fin 256) :
    Cert.Gcn.combine a h sc b (ix2 r q)
      = max ((a (ix2 r q) + h (ix2 r q) * sc (ix2 r (0 : Fin 1))) + b (ix1 q)) (Ideal.ofBits .f32 0x00000000#32) := by
  unfold Cert.Gcn.combine
  show max ((a (ix2 r q) + h (ix2 r q) * broadcastInDim S100000x256 ![0, 1] _ sc (ix2 r q))
      + broadcastInDim S100000x256 ![0, 1] _ (broadcastInDim S1x256 ![1] _ b) (ix2 r q)) _ = _
  rw [broadcastInDim_apply ![0, 1] _ sc (ix2 r q) (ix2 r (0 : Fin 1)) (fun ax => by
        match ax with
        | ⟨0, _⟩ => rfl
        | ⟨1, _⟩ => rfl),
    broadcastInDim_apply ![0, 1] _ (broadcastInDim S1x256 ![1] _ b) (ix2 r q) (ix2 (0 : Fin 1) q) (fun ax => by
        match ax with
        | ⟨0, _⟩ => rfl
        | ⟨1, _⟩ => rfl),
    broadcastInDim_apply ![1] _ b (ix2 (0 : Fin 1) q) (ix1 q) (fun ax => by
        match ax with
        | ⟨0, _⟩ => rfl)]
  rfl

/-! ## The blocks as rows of the arrays -/

theorem hz2 : (![0, 0] : Fin 2 → Nat) = fun _ => 0 := funext fun a => by fin_cases a <;> rfl
theorem hz1 : (![0] : Fin 1 → Nat) = fun _ => 0 := funext fun a => by fin_cases a <;> rfl

/-- Where each window's block sits at grid point t, decided once over the 50 points: the two tiles, the column of
    row weights and the output tile are all block t along the rows and block 0 along the columns; the bias vector
    is its one block at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Entry (p, q) of the output's block at point t is entry (2000 t + p, q) of the output array. -/
theorem out_emb (t : Fin cfg1.N) (p : Fin 2000) (q : Fin 256) (r : Fin 100000) (hr : r.val = 2000 * t.val + p.val) :
    ((cfg1.win 4).blk t).view.emb (ix2 p q) = ix2 r q := by
  obtain ⟨-, -, -, -, -, -, -, e0, e1⟩ := idx_facts t
  funext ax; apply Fin.ext
  match ax with
  | ⟨0, _⟩ => show win1_4.index t (0 : Fin 2) * 2000 + 1 * p.val = r.val; omega
  | ⟨1, _⟩ => show win1_4.index t (1 : Fin 2) * 256 + 1 * q.val = q.val; omega

/-- The first tile at point t is rows 2000 t to 2000 t + 1999 of its array. -/
theorem blk0_apply (c : Dev nD) (t : Fin cfg1.N) (p : Fin 2000) (q : Fin 256) (r : Fin 100000)
    (hr : r.val = 2000 * t.val + p.val) :
    (iblk1 (F := Ideal) V c 0 t : Vec Ideal S2000x256 .f32) (ix2 p q) = (V c main_v48 : S100000x256.Idx → Elt Ideal .f32) (ix2 r q) := by
  obtain ⟨e0, e1, -⟩ := idx_facts t
  unfold iblk1
  rw [View.read_apply]
  show V c main_v48 _ = V c main_v48 _
  congr 1
  funext ax; apply Fin.ext
  match ax with
  | ⟨0, _⟩ => show win1_0.index t (0 : Fin 2) * 2000 + 1 * p.val = r.val; omega
  | ⟨1, _⟩ => show win1_0.index t (1 : Fin 2) * 256 + 1 * q.val = q.val; omega

/-- The second tile at point t is the same rows of its array. -/
theorem blk1_apply (c : Dev nD) (t : Fin cfg1.N) (p : Fin 2000) (q : Fin 256) (r : Fin 100000)
    (hr : r.val = 2000 * t.val + p.val) :
    (iblk1 (F := Ideal) V c 1 t : Vec Ideal S2000x256 .f32) (ix2 p q) = (V c main_v36 : S100000x256.Idx → Elt Ideal .f32) (ix2 r q) := by
  obtain ⟨-, -, e0, e1, -⟩ := idx_facts t
  unfold iblk1
  rw [View.read_apply]
  show V c main_v36 _ = V c main_v36 _
  congr 1
  funext ax; apply Fin.ext
  match ax with
  | ⟨0, _⟩ => show win1_1.index t (0 : Fin 2) * 2000 + 1 * p.val = r.val; omega
  | ⟨1, _⟩ => show win1_1.index t (1 : Fin 2) * 256 + 1 * q.val = q.val; omega

/-- The column of row weights at point t is the same rows of the whole column. -/
theorem blk2_apply (c : Dev nD) (t : Fin cfg1.N) (p : Fin 2000) (r : Fin 100000)
    (hr : r.val = 2000 * t.val + p.val) :
    (iblk1 (F := Ideal) V c 2 t : Vec Ideal S2000x1 .f32) (ix2 p (0 : Fin 1)) = (V c main_v33 : S100000x1.Idx → Elt Ideal .f32) (ix2 r (0 : Fin 1)) := by
  obtain ⟨-, -, -, -, e0, e1, -⟩ := idx_facts t
  unfold iblk1
  rw [View.read_apply]
  show V c main_v33 _ = V c main_v33 _
  congr 1
  funext ax; apply Fin.ext
  match ax with
  | ⟨0, _⟩ => show win1_2.index t (0 : Fin 2) * 2000 + 1 * p.val = r.val; omega
  | ⟨1, _⟩ => show win1_2.index t (1 : Fin 2) * 1 + 1 * 0 = 0; omega

/-- The bias vector's block is the whole vector at every point. -/
theorem blk3_apply (c : Dev nD) (t : Fin cfg1.N) (q : Fin 256) :
    (iblk1 (F := Ideal) V c 3 t : Vec Ideal S256 .f32) (ix1 q) = (V c main_arg3 : S256.Idx → Elt Ideal .f32) (ix1 q) := by
  obtain ⟨-, -, -, -, -, -, e0, -⟩ := idx_facts t
  unfold iblk1
  rw [View.read_apply]
  show V c main_arg3 _ = V c main_arg3 _
  congr 1
  funext ax; apply Fin.ext
  match ax with
  | ⟨0, _⟩ => show win1_3.index t (0 : Fin 1) * 256 + 1 * q.val = q.val; omega

/-- What point t writes back is block t of the layer's end taken over the whole arrays: the body's entry (p, q)
    is computed from row p of the tiles, which is row 2000 t + p of the arrays, and that is the row the whole-array
    function reads for entry (2000 t + p, q). -/
theorem flushed_eq (c : Dev nD) (t : Fin cfg1.N) :
    (dat1 (F := Ideal) V c).flushed 4 t
      = ((cfg1.win 4).blk t).view.read (Elt Ideal) (Cert.Gcn.combine (V c main_v48) (V c main_v36) (V c main_v33) (V c main_arg3)) := by
  show (cfg1.win 4).cut (grid1.coords t) ((dat1 (F := Ideal) V c).after 4 t) = _
  rw [after1_4]
  unfold out1_4
  rw [View.canon_unit_zero hz2]
  simp only [View.ld_unit_zero (S := S2000x256) hz2, View.ld_unit_zero (S := S2000x1) hz2, View.ld_unit_zero (S := S256) hz1]
  funext j
  obtain ⟨p, q, rfl⟩ : ∃ (p : Fin 2000) (q : Fin 256), j = ix2 p q := ⟨j 0, j 1, eq_ix2 j⟩
  have hN : cfg1.N = 50 := rfl
  have hr : 2000 * t.val + p.val < 100000 := by have := t.isLt; omega
  show k1_pay1 (F := Ideal) (iblk1 V c 3 t) (iblk1 V c 0 t) (iblk1 V c 1 t) (iblk1 V c 2 t) (ix2 p q)
      = Cert.Gcn.combine (V c main_v48) (V c main_v36) (V c main_v33) (V c main_arg3) (((cfg1.win 4).blk t).view.emb (ix2 p q))
  rw [out_emb t p q ⟨2000 * t.val + p.val, hr⟩ rfl]
  refine (pay_apply _ _ _ _ p q).trans ?_
  refine Eq.trans ?_ (combine_apply (V c main_v48) (V c main_v36) (V c main_v33) (V c main_arg3) ⟨2000 * t.val + p.val, hr⟩ q).symm
  rw [blk0_apply V c t p q ⟨2000 * t.val + p.val, hr⟩ rfl, blk1_apply V c t p q ⟨2000 * t.val + p.val, hr⟩ rfl,
    blk2_apply V c t p ⟨2000 * t.val + p.val, hr⟩ rfl, blk3_apply V c t q]

/-- An entry of the output array is in point t's block when each coordinate is in the block's range on its axis. -/
theorem mem_blk (t : Fin cfg1.N) (i : S100000x256.Idx) :
    i ∈ ((cfg1.win 4).blk t).view.set ↔ ∀ ax : Fin 2, win1_4.index t ax * S2000x256.size ax ≤ (i ax).val
      ∧ (i ax).val < win1_4.index t ax * S2000x256.size ax + S2000x256.size ax := by
  show i ∈ ((View.whole main_v49).slice (win1_4.rect t)).set ↔ _
  rw [View.set_slice_whole, Rect.mem_set_unit]
  exact Iff.rfl

/-- Every entry of the output array is written back by some point: row r lies in the block of point r / 2000. -/
theorem cover (i : S100000x256.Idx) :
    ∃ t : Fin cfg1.N, (cfg1.win 4).flush t = true ∧ i ∈ ((cfg1.win 4).blk t).view.set := by
  have hi0 : (i 0).val < 100000 := (i 0).isLt
  have hi1 : (i 1).val < 256 := (i 1).isLt
  have hN : cfg1.N = 50 := rfl
  have ht : (i 0).val / 2000 < cfg1.N := by rw [hN]; omega
  obtain ⟨-, -, -, -, -, -, -, e0, e1⟩ := idx_facts ⟨(i 0).val / 2000, ht⟩
  have e0' : win1_4.index ⟨(i 0).val / 2000, ht⟩ (0 : Fin 2) = (i 0).val / 2000 := e0
  refine ⟨⟨(i 0).val / 2000, ht⟩, flush1_4 _, ?_⟩
  rw [mem_blk]
  intro ax
  match ax with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    omega
  | ⟨1, _⟩ =>
    show win1_4.index ⟨(i 0).val / 2000, ht⟩ (1 : Fin 2) * 256 ≤ (i 1).val
      ∧ (i 1).val < win1_4.index ⟨(i 0).val / 2000, ht⟩ (1 : Fin 2) * 256 + 256
    omega

/-! ## The output array after the region -/

/-- After the region its output array is the layer's end taken over the whole input arrays. -/
theorem final (c : Dev nD) :
    (dat1 (F := Ideal) V c).arrAt 4 cfg1.N = Cert.Gcn.combine (V c main_v48) (V c main_v36) (V c main_v33) (V c main_arg3) :=
  (dat1 (F := Ideal) V c).arrAt_eq_of_cover 4 _ (fun t _ => flushed_eq V c t) cover

end Cert.KernelIdeal.RegionLayer1

end
-- ==== Proof.RegionDotHid.lean ====
/-
  Region 2: the second product, tile by tile.

  The region has 50 grid points. Point t multiplies rows 2000·t … 2000·t+1999 of the left operand (a [2000, 256] block)
  by the whole right operand ([256, 256], the same block at every point) into a zero accumulator and writes the
  [2000, 256] result to the same rows of the output. Entry (2000·t+p, q) of the output is therefore
  ∑ k, H(2000·t+p, k) · W(k, q), which is the entry of the whole-array product at that place; the 50 row blocks
  tile the 100000 rows, so the output array is the whole-array product.
-/
import proofs.«117510_j52836687675718_1_alg».proof.Proof.Gen.KernelIdeal.Frame
import proofs.«117510_j52836687675718_1_alg».proof.Proof.Spec
import proofs.«117510_j52836687675718_1_alg».proof.Proof.Gen.ReferenceIdeal.Read
import proofs.«117510_j52836687675718_1_alg».proof.Proof.LibDotPlain
import Idealize.ShloMosaic.Lib.Pipeline.Value
import Idealize.ShloMosaic.Lib.ValueIdx
import Idealize.ShloMosaic.PureOps.Ideal.Laws

noncomputable section

open scoped BigOperators

namespace Cert.KernelIdeal.RegionDotHid

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, as the constant function. -/
theorem zero_offsets : (![0, 0] : Fin 2 → Nat) = fun _ => 0 := funext fun a => by fin_cases a <;> rfl

/-! ## Where the tile's dimension numbers read their operands -/

/-- The left operand is read at the output's row … -/
theorem tile_lhs_row (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and the contracted column, -/
theorem tile_lhs_col (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k
/-- the right operand at the contracted row … -/
theorem tile_rhs_row (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k
/-- … and the output's column. -/
theorem tile_rhs_col (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-! ## The two products at an entry -/

/-- What a point stores, at entry (p, q) of its block: the sum over the 256 contracted places of the products of the
    left block's row p and the right block's column q. -/
theorem tile_apply (x : Vec Ideal S2000x256 .bf16) (w : Vec Ideal S256x256 .bf16) (p : Fin 2000) (q : Fin 256) :
    k2_pay1 (F := Ideal) x w (ix2 p q) = ∑ k : Fin 256, x (ix2 p k) * w (ix2 k q) := by
  unfold k2_pay1
  simp only [shapeCast_self]
  exact Cert.LibDotPlain.matmul_zero_plain dot_S2000x256_S256x256_S2000x256_1_0_0_1_n_n rfl rfl
    tile_lhs_row tile_lhs_col tile_rhs_row tile_rhs_col none x w p q

/-- The whole-array product at entry (r, q): the same sum over the whole arrays' row r and column q. -/
theorem dotHid_apply (x : Cert.Gcn.RA Cert.ReferenceIdeal.S100000x256) (w : Cert.Gcn.RA Cert.ReferenceIdeal.S256x256)
    (r : Fin 100000) (q : Fin 256) :
    Cert.Gcn.dotHid x w (ix2 r q) = ∑ k : Fin 256, x (ix2 r k) * w (ix2 k q) := by
  unfold Cert.Gcn.dotHid
  simp only [Host.dotGeneral]
  rw [Ideal.dotGeneral_apply]
  exact Cert.LibDotPlain.sum_contr_plain Cert.ReferenceIdeal.dot_S100000x256_S256x256_S100000x256_1_0_0_1_n_n rfl rfl
    Cert.ReferenceIdeal.Read.lhs_main_v54_0 Cert.ReferenceIdeal.Read.lhs_main_v54_1
    Cert.ReferenceIdeal.Read.rhs_main_v54_0 Cert.ReferenceIdeal.Read.rhs_main_v54_1 x w r q

-- the buffers as a region finds them: any contents
variable (V : (c : Dev nD) → (b : Ref sig .tc) → Buf (Elt Ideal) ((c : Thread nD τ).loc b))

/-! ## From blocks to the array -/

/-- The printed index maps over the 50 grid points: at point t the left operand's and the output's blocks are row
    block t (column block 0), the right operand's block is always block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 2000·t … 2000·t+1999 of the array: entry (p, k) of the block is entry
    (2000·t+p, k) of the array. -/
theorem left_block_apply (c : Dev nD) (t : Fin cfg2.N) (p : Fin 2000) (k : Fin 256) (r : Fin 100000)
    (hr : r.val = 2000 * t.val + p.val) :
    (iblk2 V c 0 t : Vec Ideal S2000x256 .bf16) (ix2 p k) = V c main_v50 (ix2 r k) := by
  obtain ⟨e0, e1, -⟩ := index_facts t
  unfold iblk2
  rw [View.read_apply]
  show V c main_v50 _ = V c main_v50 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- The right operand's block at every point is the whole array. -/
theorem right_block_apply (c : Dev nD) (t : Fin cfg2.N) (k : Fin 256) (q : Fin 256) :
    (iblk2 V c 1 t : Vec Ideal S256x256 .bf16) (ix2 k q) = V c main_v51 (ix2 k q) := by
  obtain ⟨-, -, e2, e3, -⟩ := index_facts t
  unfold iblk2
  rw [View.read_apply]
  show V c main_v51 _ = V c main_v51 _
  congr 1
  funext a
  apply Fin.ext
  match a with
  | ⟨0, _⟩ => show win2_1.index t (0 : Fin 2) * 256 + 1 * k.val = k.val; rw [e2]; omega
  | ⟨1, _⟩ => show win2_1.index t (1 : Fin 2) * 256 + 1 * q.val = q.val; rw [e3]; omega

/-- What point t writes back is row block t of the whole-array product: entry (p, q) of the stored tile is the sum
    over k of H(2000·t+p, k) · W(k, q), which is entry (2000·t+p, q) of the product. -/
theorem flushed_eq (c : Dev nD) (t : Fin cfg2.N) :
    (dat2 (F := Ideal) V c).flushed 2 t
      = ((cfg2.win 2).blk t).view.read (Elt Ideal) (Cert.Gcn.dotHid (V c main_v50) (V c main_v51)) := by
  show (cfg2.win 2).cut (grid2.coords t) ((dat2 V c).after 2 t) = _
  rw [after2_2]
  unfold out2_2
  rw [View.canon_unit_zero zero_offsets]
  simp only [View.ld_unit_zero (S := S2000x256) zero_offsets, View.ld_unit_zero (S := S256x256) zero_offsets]
  funext j
  obtain ⟨p, q, rfl⟩ : ∃ (p : Fin 2000) (q : Fin 256), j = ix2 p q := ⟨j 0, j 1, eq_ix2 j⟩
  have ht : t.val < 50 := t.isLt
  obtain ⟨-, -, -, -, e4, e5⟩ := index_facts t
  have hemb : ((cfg2.win 2).blk t).view.emb (ix2 p q) = ix2 (⟨2000 * t.val + p.val, by omega⟩ : Fin 100000) q := by
    funext a
    apply Fin.ext
    match a with
    | ⟨0, _⟩ => show win2_2.index t (0 : Fin 2) * 2000 + 1 * p.val = 2000 * t.val + p.val; rw [e4]; omega
    | ⟨1, _⟩ => show win2_2.index t (1 : Fin 2) * 256 + 1 * q.val = q.val; rw [e5]; omega
  show k2_pay1 (iblk2 V c 0 t) (iblk2 V c 1 t) (ix2 p q)
    = Cert.Gcn.dotHid (V c main_v50) (V c main_v51) (((cfg2.win 2).blk t).view.emb (ix2 p q))
  rw [hemb]
  refine (tile_apply _ _ p q).trans ?_
  rw [dotHid_apply]
  refine Finset.sum_congr rfl fun k _ => ?_
  rw [left_block_apply V c t p k ⟨2000 * t.val + p.val, by omega⟩ rfl, right_block_apply V c t k q]

/-- An entry of the array is in point t's block iff each coordinate is in the block's range on its axis. -/
theorem mem_block (t : Fin cfg2.N) (i : S100000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v52).slice (win2_2.rect t)).set ↔ _
  rw [View.set_slice_whole, Rect.mem_set_unit]
  exact Iff.rfl

/-- The 50 row blocks tile the array: row r is in the block of point r / 2000. -/
theorem cover (i : S100000x256.Idx) :
    ∃ t : Fin cfg2.N, (cfg2.win 2).flush t = true ∧ i ∈ ((cfg2.win 2).blk t).view.set := by
  have hi0 : (i 0).val < 100000 := (i 0).isLt
  have hi1 : (i 1).val < 256 := (i 1).isLt
  have hlt : (i 0).val / 2000 < 50 := by omega
  obtain ⟨-, -, -, -, e4, e5⟩ := index_facts ⟨(i 0).val / 2000, hlt⟩
  refine ⟨⟨(i 0).val / 2000, hlt⟩, flush2_2 _, ?_⟩
  rw [mem_block]
  intro a
  match a with
  | ⟨0, _⟩ =>
    show win2_2.index ⟨(i 0).val / 2000, hlt⟩ (0 : Fin 2) * 2000 ≤ (i 0).val
      ∧ (i 0).val < win2_2.index ⟨(i 0).val / 2000, hlt⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, hlt⟩ (1 : Fin 2) * 256 ≤ (i 1).val
      ∧ (i 1).val < win2_2.index ⟨(i 0).val / 2000, hlt⟩ (1 : Fin 2) * 256 + 256
    rw [e5]; omega

/-- After the region the output array is the whole-array product of the two input arrays. -/
theorem final (c : Dev nD) :
    (dat2 (F := Ideal) V c).arrAt 2 cfg2.N = Cert.Gcn.dotHid (V c main_v50) (V c main_v51) :=
  (dat2 (F := Ideal) V c).arrAt_eq_of_cover 2 _ (fun t _ => flushed_eq V c t) cover

end Cert.KernelIdeal.RegionDotHid

end
-- ==== Proof.RegionLayer2.lean ====
/-
  Region 3: the end of the second layer, tile by tile.

  The region's grid has 50 points; point t works on rows 2000 t to 2000 t + 1999 of arrays of 100000 rows and 256
  columns. Its body takes the tile of the aggregated rows a, the tile of the transformed rows h, the tile's column sc
  of row weights and the whole bias vector b, and stores max (a + h · sc + b, 0), the column stretched along the
  columns and the vector along the rows. Entry (p, q) of what it stores depends on row p of the tiles only, that is on
  row 2000 t + p of the arrays, and is the entry (2000 t + p, q) of the same expression taken over the whole arrays.
  The 50 blocks tile the output array, so after the region the output array is that whole-array function.
-/
import proofs.«117510_j52836687675718_1_alg».proof.Proof.Gen.KernelIdeal.Frame
import proofs.«117510_j52836687675718_1_alg».proof.Proof.Spec
import proofs.«117510_j52836687675718_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionLayer2

open Cert.KernelIdeal Cert.KernelIdeal.Gen Idealize.ShloMosaic Idealize.ShloMosaic.TcCoe Idealize.SL.Sem
open Idealize.ShloMosaic.Pipeline (Dat)
open Idealize.ShloMosaic.ValueIdx

-- the buffers as a region finds them: any contents
variable (V : (c : Dev nD) → (b : Ref sig .tc) → Buf (Elt Ideal) ((c : Thread nD τ).loc b))

/-! ## One entry of the stored tile, and one entry of the whole-array function -/

/-- A column of shape [a, 1] stretched along the columns reads, at (p, q), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- What the body stores, entry by entry: at row p and column q of the tile, the larger of zero and
    a(p, q) + h(p, q) · sc(p) + b(q), where a and h are the two tiles of 2000 rows, sc the tile's column of row
    weights and b the bias vector. An entry depends on row p of the tiles only. -/
theorem pay_apply (b : Vec Ideal S256 .f32) (a h : Vec Ideal S2000x256 .f32) (sc : Vec Ideal S2000x1 .f32)
    (p : Fin 2000) (q : Fin 256) :
    k3_pay1 (F := Ideal) b a h sc (ix2 p q)
      = max ((a (ix2 p q) + h (ix2 p q) * sc (ix2 p (0 : Fin 1))) + b (ix1 q)) (Ideal.ofBits .f32 0x00000000#32) := by
  unfold k3_pay1
  simp only [shapeCast_self]
  show max ((a (ix2 p q) + h (ix2 p q) * broadcastTo S2000x256 sc broadcasts_S2000x1_S2000x256 (ix2 p q))
      + broadcastTo S2000x256 (shapeCast S1x256 b shapeCasts_S256_S1x256) broadcasts_S1x256_S2000x256 (ix2 p q)) _ = _
  rw [broadcastTo_a1_ab_apply sc broadcasts_S2000x1_S2000x256 p q,
    broadcastTo_1b_ab_apply (shapeCast S1x256 b shapeCasts_S256_S1x256) broadcasts_S1x256_S2000x256 p q,
    shapeCast_a_1a_apply b shapeCasts_S256_S1x256 (0 : Fin 1) q]
  rfl

/-- The end of a layer as a function of the whole arrays, entry by entry: at row r and column q, the larger of
    zero and a(r, q) + h(r, q) · sc(r) + b(q). An entry depends on row r of the arrays only. -/
theorem combine_apply (a h : Cert.Gcn.RA S100000x256) (sc : Cert.Gcn.RA S100000x1) (b : Cert.Gcn.RA S256)
    (r : Fin 100000) (q : Fin 256) :
    Cert.Gcn.combine a h sc b (ix2 r q)
      = max ((a (ix2 r q) + h (ix2 r q) * sc (ix2 r (0 : Fin 1))) + b (ix1 q)) (Ideal.ofBits .f32 0x00000000#32) := by
  unfold Cert.Gcn.combine
  show max ((a (ix2 r q) + h (ix2 r q) * broadcastInDim S100000x256 ![0, 1] _ sc (ix2 r q))
      + broadcastInDim S100000x256 ![0, 1] _ (broadcastInDim S1x256 ![1] _ b) (ix2 r q)) _ = _
  rw [broadcastInDim_apply ![0, 1] _ sc (ix2 r q) (ix2 r (0 : Fin 1)) (fun ax => by
        match ax with
        | ⟨0, _⟩ => rfl
        | ⟨1, _⟩ => rfl),
    broadcastInDim_apply ![0, 1] _ (broadcastInDim S1x256 ![1] _ b) (ix2 r q) (ix2 (0 : Fin 1) q) (fun ax => by
        match ax with
        | ⟨0, _⟩ => rfl
        | ⟨1, _⟩ => rfl),
    broadcastInDim_apply ![1] _ b (ix2 (0 : Fin 1) q) (ix1 q) (fun ax => by
        match ax with
        | ⟨0, _⟩ => rfl)]
  rfl

/-! ## The blocks as rows of the arrays -/

theorem hz2 : (![0, 0] : Fin 2 → Nat) = fun _ => 0 := funext fun a => by fin_cases a <;> rfl
theorem hz1 : (![0] : Fin 1 → Nat) = fun _ => 0 := funext fun a => by fin_cases a <;> rfl

/-- Where each window's block sits at grid point t, decided once over the 50 points: the two tiles, the column of
    row weights and the output tile are all block t along the rows and block 0 along the columns; the bias vector
    is its one block at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Entry (p, q) of the output's block at point t is entry (2000 t + p, q) of the output array. -/
theorem out_emb (t : Fin cfg3.N) (p : Fin 2000) (q : Fin 256) (r : Fin 100000) (hr : r.val = 2000 * t.val + p.val) :
    ((cfg3.win 4).blk t).view.emb (ix2 p q) = ix2 r q := by
  obtain ⟨-, -, -, -, -, -, -, e0, e1⟩ := idx_facts t
  funext ax; apply Fin.ext
  match ax with
  | ⟨0, _⟩ => show win3_4.index t (0 : Fin 2) * 2000 + 1 * p.val = r.val; omega
  | ⟨1, _⟩ => show win3_4.index t (1 : Fin 2) * 256 + 1 * q.val = q.val; omega

/-- The first tile at point t is rows 2000 t to 2000 t + 1999 of its array. -/
theorem blk0_apply (c : Dev nD) (t : Fin cfg3.N) (p : Fin 2000) (q : Fin 256) (r : Fin 100000)
    (hr : r.val = 2000 * t.val + p.val) :
    (iblk3 (F := Ideal) V c 0 t : Vec Ideal S2000x256 .f32) (ix2 p q) = (V c main_v64 : S100000x256.Idx → Elt Ideal .f32) (ix2 r q) := by
  obtain ⟨e0, e1, -⟩ := idx_facts t
  unfold iblk3
  rw [View.read_apply]
  show V c main_v64 _ = V c main_v64 _
  congr 1
  funext ax; apply Fin.ext
  match ax with
  | ⟨0, _⟩ => show win3_0.index t (0 : Fin 2) * 2000 + 1 * p.val = r.val; omega
  | ⟨1, _⟩ => show win3_0.index t (1 : Fin 2) * 256 + 1 * q.val = q.val; omega

/-- The second tile at point t is the same rows of its array. -/
theorem blk1_apply (c : Dev nD) (t : Fin cfg3.N) (p : Fin 2000) (q : Fin 256) (r : Fin 100000)
    (hr : r.val = 2000 * t.val + p.val) :
    (iblk3 (F := Ideal) V c 1 t : Vec Ideal S2000x256 .f32) (ix2 p q) = (V c main_v52 : S100000x256.Idx → Elt Ideal .f32) (ix2 r q) := by
  obtain ⟨-, -, e0, e1, -⟩ := idx_facts t
  unfold iblk3
  rw [View.read_apply]
  show V c main_v52 _ = V c main_v52 _
  congr 1
  funext ax; apply Fin.ext
  match ax with
  | ⟨0, _⟩ => show win3_1.index t (0 : Fin 2) * 2000 + 1 * p.val = r.val; omega
  | ⟨1, _⟩ => show win3_1.index t (1 : Fin 2) * 256 + 1 * q.val = q.val; omega

/-- The column of row weights at point t is the same rows of the whole column. -/
theorem blk2_apply (c : Dev nD) (t : Fin cfg3.N) (p : Fin 2000) (r : Fin 100000)
    (hr : r.val = 2000 * t.val + p.val) :
    (iblk3 (F := Ideal) V c 2 t : Vec Ideal S2000x1 .f32) (ix2 p (0 : Fin 1)) = (V c main_v33 : S100000x1.Idx → Elt Ideal .f32) (ix2 r (0 : Fin 1)) := by
  obtain ⟨-, -, -, -, e0, e1, -⟩ := idx_facts t
  unfold iblk3
  rw [View.read_apply]
  show V c main_v33 _ = V c main_v33 _
  congr 1
  funext ax; apply Fin.ext
  match ax with
  | ⟨0, _⟩ => show win3_2.index t (0 : Fin 2) * 2000 + 1 * p.val = r.val; omega
  | ⟨1, _⟩ => show win3_2.index t (1 : Fin 2) * 1 + 1 * 0 = 0; omega

/-- The bias vector's block is the whole vector at every point. -/
theorem blk3_apply (c : Dev nD) (t : Fin cfg3.N) (q : Fin 256) :
    (iblk3 (F := Ideal) V c 3 t : Vec Ideal S256 .f32) (ix1 q) = (V c main_arg5 : S256.Idx → Elt Ideal .f32) (ix1 q) := by
  obtain ⟨-, -, -, -, -, -, e0, -⟩ := idx_facts t
  unfold iblk3
  rw [View.read_apply]
  show V c main_arg5 _ = V c main_arg5 _
  congr 1
  funext ax; apply Fin.ext
  match ax with
  | ⟨0, _⟩ => show win3_3.index t (0 : Fin 1) * 256 + 1 * q.val = q.val; omega

/-- What point t writes back is block t of the layer's end taken over the whole arrays: the body's entry (p, q)
    is computed from row p of the tiles, which is row 2000 t + p of the arrays, and that is the row the whole-array
    function reads for entry (2000 t + p, q). -/
theorem flushed_eq (c : Dev nD) (t : Fin cfg3.N) :
    (dat3 (F := Ideal) V c).flushed 4 t
      = ((cfg3.win 4).blk t).view.read (Elt Ideal) (Cert.Gcn.combine (V c main_v64) (V c main_v52) (V c main_v33) (V c main_arg5)) := by
  show (cfg3.win 4).cut (grid3.coords t) ((dat3 (F := Ideal) V c).after 4 t) = _
  rw [after3_4]
  unfold out3_4
  rw [View.canon_unit_zero hz2]
  simp only [View.ld_unit_zero (S := S2000x256) hz2, View.ld_unit_zero (S := S2000x1) hz2, View.ld_unit_zero (S := S256) hz1]
  funext j
  obtain ⟨p, q, rfl⟩ : ∃ (p : Fin 2000) (q : Fin 256), j = ix2 p q := ⟨j 0, j 1, eq_ix2 j⟩
  have hN : cfg3.N = 50 := rfl
  have hr : 2000 * t.val + p.val < 100000 := by have := t.isLt; omega
  show k3_pay1 (F := Ideal) (iblk3 V c 3 t) (iblk3 V c 0 t) (iblk3 V c 1 t) (iblk3 V c 2 t) (ix2 p q)
      = Cert.Gcn.combine (V c main_v64) (V c main_v52) (V c main_v33) (V c main_arg5) (((cfg3.win 4).blk t).view.emb (ix2 p q))
  rw [out_emb t p q ⟨2000 * t.val + p.val, hr⟩ rfl]
  refine (pay_apply _ _ _ _ p q).trans ?_
  refine Eq.trans ?_ (combine_apply (V c main_v64) (V c main_v52) (V c main_v33) (V c main_arg5) ⟨2000 * t.val + p.val, hr⟩ q).symm
  rw [blk0_apply V c t p q ⟨2000 * t.val + p.val, hr⟩ rfl, blk1_apply V c t p q ⟨2000 * t.val + p.val, hr⟩ rfl,
    blk2_apply V c t p ⟨2000 * t.val + p.val, hr⟩ rfl, blk3_apply V c t q]

/-- An entry of the output array is in point t's block when each coordinate is in the block's range on its axis. -/
theorem mem_blk (t : Fin cfg3.N) (i : S100000x256.Idx) :
    i ∈ ((cfg3.win 4).blk t).view.set ↔ ∀ ax : Fin 2, win3_4.index t ax * S2000x256.size ax ≤ (i ax).val
      ∧ (i ax).val < win3_4.index t ax * S2000x256.size ax + S2000x256.size ax := by
  show i ∈ ((View.whole main_v65).slice (win3_4.rect t)).set ↔ _
  rw [View.set_slice_whole, Rect.mem_set_unit]
  exact Iff.rfl

/-- Every entry of the output array is written back by some point: row r lies in the block of point r / 2000. -/
theorem cover (i : S100000x256.Idx) :
    ∃ t : Fin cfg3.N, (cfg3.win 4).flush t = true ∧ i ∈ ((cfg3.win 4).blk t).view.set := by
  have hi0 : (i 0).val < 100000 := (i 0).isLt
  have hi1 : (i 1).val < 256 := (i 1).isLt
  have hN : cfg3.N = 50 := rfl
  have ht : (i 0).val / 2000 < cfg3.N := by rw [hN]; omega
  obtain ⟨-, -, -, -, -, -, -, e0, e1⟩ := idx_facts ⟨(i 0).val / 2000, ht⟩
  have e0' : win3_4.index ⟨(i 0).val / 2000, ht⟩ (0 : Fin 2) = (i 0).val / 2000 := e0
  refine ⟨⟨(i 0).val / 2000, ht⟩, flush3_4 _, ?_⟩
  rw [mem_blk]
  intro ax
  match ax with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    omega
  | ⟨1, _⟩ =>
    show win3_4.index ⟨(i 0).val / 2000, ht⟩ (1 : Fin 2) * 256 ≤ (i 1).val
      ∧ (i 1).val < win3_4.index ⟨(i 0).val / 2000, ht⟩ (1 : Fin 2) * 256 + 256
    omega

/-! ## The output array after the region -/

/-- After the region its output array is the layer's end taken over the whole input arrays. -/
theorem final (c : Dev nD) :
    (dat3 (F := Ideal) V c).arrAt 4 cfg3.N = Cert.Gcn.combine (V c main_v64) (V c main_v52) (V c main_v33) (V c main_arg5) :=
  (dat3 (F := Ideal) V c).arrAt_eq_of_cover 4 _ (fun t _ => flushed_eq V c t) cover

end Cert.KernelIdeal.RegionLayer2

end
-- ==== Proof.RegionHead.lean ====
/-
  Region 4: the head, tile by tile.

  The region has 50 grid points. Point t multiplies rows 2000·t … 2000·t+1999 of the left operand (a [2000, 256] block)
  by the whole right operand ([256, 64], the same block at every point) into a zero accumulator, adds the bias (the
  whole [64] vector, the same at every point, as one row repeated over the 2000 rows) and writes the [2000, 64] result
  to the same rows of the output. Entry (2000·t+p, q) of the output is therefore ∑ k, H(2000·t+p, k) · W(k, q) + b(q),
  which is the entry of the whole-array head at that place; the 50 row blocks tile the 100000 rows, so the output array
  is the whole-array head.
-/
import proofs.«117510_j52836687675718_1_alg».proof.Proof.Gen.KernelIdeal.Frame
import proofs.«117510_j52836687675718_1_alg».proof.Proof.Spec
import proofs.«117510_j52836687675718_1_alg».proof.Proof.Gen.ReferenceIdeal.Read
import proofs.«117510_j52836687675718_1_alg».proof.Proof.LibDotPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionHead

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access of a matrix, as the constant function, -/
theorem zero_offsets : (![0, 0] : Fin 2 → Nat) = fun _ => 0 := funext fun a => by fin_cases a <;> rfl
/-- and of a vector. -/
theorem zero_offset : (![0] : Fin 1 → Nat) = fun _ => 0 := funext fun a => by fin_cases a; rfl

/-! ## Where the tile's dimension numbers read their operands -/

/-- The left operand is read at the output's row … -/
theorem tile_lhs_row (i : S2000x64.Idx) (k : dot_S2000x256_S256x64_S2000x64_1_0_0_1_n_n.contr.Idx) :
    (dot_S2000x256_S256x64_S2000x64_1_0_0_1_n_n.lhsIdx i k 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
/-- … and the contracted column, -/
theorem tile_lhs_col (i : S2000x64.Idx) (k : dot_S2000x256_S256x64_S2000x64_1_0_0_1_n_n.contr.Idx) :
    (dot_S2000x256_S256x64_S2000x64_1_0_0_1_n_n.lhsIdx i k 1).val = (k ⟨0, by decide⟩).val :=
  dot_S2000x256_S256x64_S2000x64_1_0_0_1_n_n.lhsIdx_val_of_single rfl i k
/-- the right operand at the contracted row … -/
theorem tile_rhs_row (i : S2000x64.Idx) (k : dot_S2000x256_S256x64_S2000x64_1_0_0_1_n_n.contr.Idx) :
    (dot_S2000x256_S256x64_S2000x64_1_0_0_1_n_n.rhsIdx i k 0).val = (k ⟨0, by decide⟩).val :=
  dot_S2000x256_S256x64_S2000x64_1_0_0_1_n_n.rhsIdx_val_of_single rfl i k
/-- … and the output's column. -/
theorem tile_rhs_col (i : S2000x64.Idx) (k : dot_S2000x256_S256x64_S2000x64_1_0_0_1_n_n.contr.Idx) :
    (dot_S2000x256_S256x64_S2000x64_1_0_0_1_n_n.rhsIdx i k 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-! ## The two heads at an entry -/

/-- What a point stores, at entry (p, q) of its block: the sum over the 256 contracted places of the products of the
    left block's row p and the right block's column q, plus the bias at q (the bias is cast to one row and that row
    repeated over the rows, so every row reads it at its own column). -/
theorem tile_apply (x : Vec Ideal S2000x256 .bf16) (w : Vec Ideal S256x64 .bf16) (b : Vec Ideal S64 .f32)
    (p : Fin 2000) (q : Fin 64) :
    k4_pay1 (F := Ideal) x w b (ix2 p q) = (∑ k : Fin 256, x (ix2 p k) * w (ix2 k q)) + b (ix1 q) := by
  unfold k4_pay1
  simp only [shapeCast_self]
  refine (addf_apply _ _ _).trans ?_
  exact congrArg₂ (· + ·)
    (Cert.LibDotPlain.matmul_zero_plain dot_S2000x256_S256x64_S2000x64_1_0_0_1_n_n rfl rfl
      tile_lhs_row tile_lhs_col tile_rhs_row tile_rhs_col none x w p q)
    ((broadcastTo_1b_ab_apply _ _ p q).trans (shapeCast_a_1a_apply b _ 0 q))

/-- The whole-array product at entry (r, q): the same sum over the whole arrays' row r and column q. -/
theorem dotOut_apply (h : Cert.Gcn.RA Cert.ReferenceIdeal.S100000x256) (w : Cert.Gcn.RA Cert.ReferenceIdeal.S256x64)
    (r : Fin 100000) (q : Fin 64) :
    Cert.Gcn.dotOut h w (ix2 r q) = ∑ k : Fin 256, h (ix2 r k) * w (ix2 k q) := by
  unfold Cert.Gcn.dotOut
  simp only [Host.dotGeneral]
  rw [Ideal.dotGeneral_apply]
  exact Cert.LibDotPlain.sum_contr_plain Cert.ReferenceIdeal.dot_S100000x256_S256x64_S100000x64_1_0_0_1_n_n rfl rfl
    Cert.ReferenceIdeal.Read.lhs_main_v75_0 Cert.ReferenceIdeal.Read.lhs_main_v75_1
    Cert.ReferenceIdeal.Read.rhs_main_v75_0 Cert.ReferenceIdeal.Read.rhs_main_v75_1 h w r q

/-- The whole-array head at entry (r, q): the product's entry plus the bias at q (the bias is broadcast to one row
    along the columns and that row along the rows, so entry (r, q) reads it at q). -/
theorem head_apply (h : Cert.Gcn.RA Cert.ReferenceIdeal.S100000x256) (w : Cert.Gcn.RA Cert.ReferenceIdeal.S256x64)
    (b : Cert.Gcn.RA Cert.ReferenceIdeal.S64) (r : Fin 100000) (q : Fin 64) :
    Cert.Gcn.head h w b (ix2 r q) = (∑ k : Fin 256, h (ix2 r k) * w (ix2 k q)) + b (ix1 q) := by
  unfold Cert.Gcn.head
  refine (addf_apply _ _ _).trans ?_
  rw [dotOut_apply]
  refine congrArg _ ((broadcastInDim_apply _ _ _ (ix2 r q) (ix2 (0 : Fin 1) q) fun a => ?_).trans
    (broadcastInDim_apply _ _ _ (ix2 (0 : Fin 1) q) (ix1 q) fun a => ?_))
  · match a with
    | ⟨0, _⟩ => rfl
    | ⟨1, _⟩ => show q.val = if (64 : Nat) = 1 then 0 else q.val; rw [if_neg (by decide)]
  · match a with
    | ⟨0, _⟩ => show q.val = if (64 : Nat) = 1 then 0 else q.val; rw [if_neg (by decide)]

-- the buffers as a region finds them: any contents
variable (V : (c : Dev nD) → (b : Ref sig .tc) → Buf (Elt Ideal) ((c : Thread nD τ).loc b))

/-! ## From blocks to the array -/

/-- The printed index maps over the 50 grid points: at point t the left operand's and the output's blocks are row
    block t (column block 0), the right operand's block is always block (0, 0) and the bias's always block 0. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The left operand's block at point t is rows 2000·t … 2000·t+1999 of the array: entry (p, k) of the block is entry
    (2000·t+p, k) of the array. -/
theorem left_block_apply (c : Dev nD) (t : Fin cfg4.N) (p : Fin 2000) (k : Fin 256) (r : Fin 100000)
    (hr : r.val = 2000 * t.val + p.val) :
    (iblk4 V c 0 t : Vec Ideal S2000x256 .bf16) (ix2 p k) = V c main_v66 (ix2 r k) := by
  obtain ⟨e0, e1, -⟩ := index_facts t
  unfold iblk4
  rw [View.read_apply]
  show V c main_v66 _ = V c main_v66 _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 256 + 1 * k.val = k.val; rw [e1]; omega

/-- The right operand's block at every point is the whole array. -/
theorem right_block_apply (c : Dev nD) (t : Fin cfg4.N) (k : Fin 256) (q : Fin 64) :
    (iblk4 V c 1 t : Vec Ideal S256x64 .bf16) (ix2 k q) = V c main_v67 (ix2 k q) := by
  obtain ⟨-, -, e2, e3, -⟩ := index_facts t
  unfold iblk4
  rw [View.read_apply]
  show V c main_v67 _ = V c main_v67 _
  congr 1
  funext a
  apply Fin.ext
  match a with
  | ⟨0, _⟩ => show win4_1.index t (0 : Fin 2) * 256 + 1 * k.val = k.val; rw [e2]; omega
  | ⟨1, _⟩ => show win4_1.index t (1 : Fin 2) * 64 + 1 * q.val = q.val; rw [e3]; omega

/-- The bias's block at every point is the whole vector. -/
theorem bias_block_apply (c : Dev nD) (t : Fin cfg4.N) (q : Fin 64) :
    (iblk4 V c 2 t : Vec Ideal S64 .f32) (ix1 q) = V c main_arg7 (ix1 q) := by
  obtain ⟨-, -, -, -, e4, -⟩ := index_facts t
  unfold iblk4
  rw [View.read_apply]
  show V c main_arg7 _ = V c main_arg7 _
  congr 1
  funext a
  apply Fin.ext
  match a with
  | ⟨0, _⟩ => show win4_2.index t (0 : Fin 1) * 64 + 1 * q.val = q.val; rw [e4]; omega

/-- What point t writes back is row block t of the whole-array head: entry (p, q) of the stored tile is the sum over k
    of H(2000·t+p, k) · W(k, q) plus b(q), which is entry (2000·t+p, q) of the head. -/
theorem flushed_eq (c : Dev nD) (t : Fin cfg4.N) :
    (dat4 (F := Ideal) V c).flushed 3 t
      = ((cfg4.win 3).blk t).view.read (Elt Ideal) (Cert.Gcn.head (V c main_v66) (V c main_v67) (V c main_arg7)) := by
  show (cfg4.win 3).cut (grid4.coords t) ((dat4 V c).after 3 t) = _
  rw [after4_3]
  unfold out4_3
  rw [View.canon_unit_zero zero_offsets]
  simp only [View.ld_unit_zero (S := S2000x256) zero_offsets, View.ld_unit_zero (S := S256x64) zero_offsets,
    View.ld_unit_zero (S := S64) zero_offset]
  funext j
  obtain ⟨p, q, rfl⟩ : ∃ (p : Fin 2000) (q : Fin 64), j = ix2 p q := ⟨j 0, j 1, eq_ix2 j⟩
  have ht : t.val < 50 := t.isLt
  obtain ⟨-, -, -, -, -, e5, e6⟩ := index_facts t
  have hemb : ((cfg4.win 3).blk t).view.emb (ix2 p q) = ix2 (⟨2000 * t.val + p.val, by omega⟩ : Fin 100000) q := by
    funext a
    apply Fin.ext
    match a with
    | ⟨0, _⟩ => show win4_3.index t (0 : Fin 2) * 2000 + 1 * p.val = 2000 * t.val + p.val; rw [e5]; omega
    | ⟨1, _⟩ => show win4_3.index t (1 : Fin 2) * 64 + 1 * q.val = q.val; rw [e6]; omega
  show k4_pay1 (iblk4 V c 0 t) (iblk4 V c 1 t) (iblk4 V c 2 t) (ix2 p q)
    = Cert.Gcn.head (V c main_v66) (V c main_v67) (V c main_arg7) (((cfg4.win 3).blk t).view.emb (ix2 p q))
  rw [hemb]
  refine (tile_apply _ _ _ p q).trans ?_
  rw [head_apply, bias_block_apply V c t q]
  refine congrArg (· + _) (Finset.sum_congr rfl fun k _ => ?_)
  rw [left_block_apply V c t p k ⟨2000 * t.val + p.val, by omega⟩ rfl, right_block_apply V c t k q]

/-- An entry of the array is in point t's block iff each coordinate is in the block's range on its axis. -/
theorem mem_block (t : Fin cfg4.N) (i : S100000x64.Idx) :
    i ∈ ((cfg4.win 3).blk t).view.set ↔ ∀ a : Fin 2, win4_3.index t a * S2000x64.size a ≤ (i a).val
      ∧ (i a).val < win4_3.index t a * S2000x64.size a + S2000x64.size a := by
  show i ∈ ((View.whole main_v68).slice (win4_3.rect t)).set ↔ _
  rw [View.set_slice_whole, Rect.mem_set_unit]
  exact Iff.rfl

/-- The 50 row blocks tile the array: row r is in the block of point r / 2000. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hlt : (i 0).val / 2000 < 50 := by omega
  obtain ⟨-, -, -, -, -, e5, e6⟩ := index_facts ⟨(i 0).val / 2000, hlt⟩
  refine ⟨⟨(i 0).val / 2000, hlt⟩, flush4_3 _, ?_⟩
  rw [mem_block]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    rw [e5]; show (i 0).val / 2000 * 2000 ≤ (i 0).val ∧ (i 0).val < (i 0).val / 2000 * 2000 + 2000; omega
  | ⟨1, _⟩ =>
    show win4_3.index ⟨(i 0).val / 2000, hlt⟩ (1 : Fin 2) * 64 ≤ (i 1).val
      ∧ (i 1).val < win4_3.index ⟨(i 0).val / 2000, hlt⟩ (1 : Fin 2) * 64 + 64
    rw [e6]; omega

/-- After the region the output array is the whole-array head of the three input arrays. -/
theorem final (c : Dev nD) :
    (dat4 (F := Ideal) V c).arrAt 3 cfg4.N = Cert.Gcn.head (V c main_v66) (V c main_v67) (V c main_arg7) :=
  (dat4 (F := Ideal) V c).arrAt_eq_of_cover 3 _ (fun t _ => flushed_eq V c t) cover

end Cert.KernelIdeal.RegionHead

end
-- ==== Proof.KernelValue.lean ====
/-
  The kernel program's result as a function of its arguments, over the extended reals.

  The program's buffer contents at the boundaries between its host stretches and its tiled regions form a chain from the
  launch memory. Read along that chain: the first stretch computes the edge lists, the edge weights and the per-node
  weights; each product region leaves the product of its input arrays (a change of float format being the identity on
  the extended reals); each stretch between a product and a layer end gathers, weighs and scatter-adds the product's rows;
  each layer-end region leaves `max (agg + t · dinv² + b, 0)`; the last region leaves the head. Composed, the result
  buffer holds the network of the specification applied to the argument arrays.
-/
import proofs.«117510_j52836687675718_1_alg».proof.Proof.Gen.KernelIdeal.Frame
import proofs.«117510_j52836687675718_1_alg».proof.Proof.Gen.ReferenceIdeal
import proofs.«117510_j52836687675718_1_alg».proof.Proof.Spec
import proofs.«117510_j52836687675718_1_alg».proof.Proof.Keeps
import proofs.«117510_j52836687675718_1_alg».proof.Proof.RegionDotIn
import proofs.«117510_j52836687675718_1_alg».proof.Proof.RegionLayer1
import proofs.«117510_j52836687675718_1_alg».proof.Proof.RegionDotHid
import proofs.«117510_j52836687675718_1_alg».proof.Proof.RegionLayer2
import proofs.«117510_j52836687675718_1_alg».proof.Proof.RegionHead
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.Gcn

variable (m : (ℓ : Loc nD τ sig) → Buf (Elt Ideal) ℓ) (ρ : Dev nD → PrngReg) (c : Dev nD)

/-- The argument arrays at launch. -/
abbrev argX : RA Cert.ReferenceIdeal.S100000x512 := m ((c : Thread nD τ).loc main_arg0)
abbrev argE : IA Cert.ReferenceIdeal.S2x800000 := m ((c : Thread nD τ).loc main_arg1)
abbrev argW1 : RA Cert.ReferenceIdeal.S512x256 := m ((c : Thread nD τ).loc main_arg2)
abbrev argB1 : RA Cert.ReferenceIdeal.S256 := m ((c : Thread nD τ).loc main_arg3)
abbrev argW2 : RA Cert.ReferenceIdeal.S256x256 := m ((c : Thread nD τ).loc main_arg4)
abbrev argB2 : RA Cert.ReferenceIdeal.S256 := m ((c : Thread nD τ).loc main_arg5)
abbrev argWc : RA Cert.ReferenceIdeal.S256x64 := m ((c : Thread nD τ).loc main_arg6)
abbrev argBc : RA Cert.ReferenceIdeal.S64 := m ((c : Thread nD τ).loc main_arg7)

/-- The transformed rows and the hidden rows of the two layers, as the specification composes them. -/
abbrev rows1 : RA Cert.ReferenceIdeal.S100000x256 := dotIn (argX m c) (argW1 m c)
abbrev hid1 : RA Cert.ReferenceIdeal.S100000x256 := layer (argE m c) (rows1 m c) (argB1 m c)
abbrev rows2 : RA Cert.ReferenceIdeal.S100000x256 := dotHid (hid1 m c) (argW2 m c)
abbrev hid2 : RA Cert.ReferenceIdeal.S100000x256 := layer (argE m c) (rows2 m c) (argB2 m c)

/-! ## The first stretch: the edge lists and the weights -/

/-- The sources, at the first region's entry. -/
theorem src1 : W1 m ρ c (Proc.devRef .tc main_v1) = edgeSrc (argE m c) := by
  show StableHlo.after hostOps0 (W0 m ρ c) (Proc.devRef .tc main_v1) = _
  after_results_simp <;> rfl

/-- The destinations. -/
theorem dst1 : W1 m ρ c (Proc.devRef .tc main_v3) = edgeDst (argE m c) := by
  show StableHlo.after hostOps0 (W0 m ρ c) (Proc.devRef .tc main_v3) = _
  after_results_simp <;> rfl

/-- The edge weights `dinv[src] · dinv[dst]` as a column. -/
theorem edge1 : W1 m ρ c (Proc.devRef .tc main_v31) = edgeCol (argE m c) := by
  show StableHlo.after hostOps0 (W0 m ρ c) (Proc.devRef .tc main_v31) = _
  after_results_simp <;> rfl

/-- The per-node weights `dinv²` as a column. -/
theorem self1 : W1 m ρ c (Proc.devRef .tc main_v33) = selfCol (argE m c) := by
  show StableHlo.after hostOps0 (W0 m ρ c) (Proc.devRef .tc main_v33) = _
  after_results_simp <;> rfl

/-- The node features in the narrower format: the same extended reals. -/
theorem x1 : (W1 m ρ c (Proc.devRef .tc main_v34) : RA Cert.ReferenceIdeal.S100000x512) = argX m c := by
  show StableHlo.after hostOps0 (W0 m ρ c) (Proc.devRef .tc main_v34) = _
  after_results_simp <;> rfl

/-- The first weight matrix in the narrower format: the same extended reals. -/
theorem w1 : (W1 m ρ c (Proc.devRef .tc main_v35) : RA Cert.ReferenceIdeal.S512x256) = argW1 m c := by
  show StableHlo.after hostOps0 (W0 m ρ c) (Proc.devRef .tc main_v35) = _
  after_results_simp <;> rfl

/-! ## Region 0 and the stretch after it: the first product, gathered, weighed and scatter-added -/

/-- Region 0 leaves the product of the node features and the first weight matrix. -/
theorem t1 : W2 m ρ c (Proc.devRef .tc main_v36) = rows1 m c := by
  refine (W2_arr m ρ c 2).trans ((RegionDotIn.final (V1 m ρ) c).trans ?_)
  exact congrArg₂ dotIn (x1 m ρ c) (w1 m ρ c)

theorem src2 : W2 m ρ c (Proc.devRef .tc main_v1) = edgeSrc (argE m c) := (W2_of_ne m ρ c main_v1 (by decide)).trans (src1 m ρ c)
theorem dst2 : W2 m ρ c (Proc.devRef .tc main_v3) = edgeDst (argE m c) := (W2_of_ne m ρ c main_v3 (by decide)).trans (dst1 m ρ c)
theorem edge2 : W2 m ρ c (Proc.devRef .tc main_v31) = edgeCol (argE m c) := (W2_of_ne m ρ c main_v31 (by decide)).trans (edge1 m ρ c)

/-- The stretch after region 0 aggregates the product's rows along the edges. -/
theorem agg1 : W3 m ρ c (Proc.devRef .tc main_v48) = agg (argE m c) (rows1 m c) := by
  show StableHlo.after hostOps1 (W2 m ρ c) (Proc.devRef .tc main_v48) = _
  after_results_simp
  rw [t1 m ρ c, src2 m ρ c, dst2 m ρ c, edge2 m ρ c]
  rfl

/-! ## Region 1 and the stretch after it: the first layer's end -/

/-- Region 1 leaves the first layer's hidden rows. -/
theorem h1 : W4 m ρ c (Proc.devRef .tc main_v49) = hid1 m c := by
  refine (W4_arr m ρ c 4).trans ((RegionLayer1.final (V3 m ρ) c).trans ?_)
  show combine (W3 m ρ c (Proc.devRef .tc main_v48)) (W3 m ρ c (Proc.devRef .tc main_v36)) (W3 m ρ c (Proc.devRef .tc main_v33))
    (W3 m ρ c (Proc.devRef .tc main_arg3)) = _
  rw [agg1 m ρ c, (W3_of m ρ c main_v36 (by decide)).trans (t1 m ρ c),
    (W3_of m ρ c main_v33 (by decide)).trans ((W2_of_ne m ρ c main_v33 (by decide)).trans (self1 m ρ c)), W3_arg3 m ρ c]
  rfl

/-- The hidden rows in the narrower format: the same extended reals. -/
theorem h1n : (W5 m ρ c (Proc.devRef .tc main_v50) : RA Cert.ReferenceIdeal.S100000x256) = hid1 m c := by
  show StableHlo.after hostOps2 (W4 m ρ c) (Proc.devRef .tc main_v50) = _
  after_results_simp
  exact h1 m ρ c

/-- The second weight matrix in the narrower format. -/
theorem w2n : (W5 m ρ c (Proc.devRef .tc main_v51) : RA Cert.ReferenceIdeal.S256x256) = argW2 m c := by
  show StableHlo.after hostOps2 (W4 m ρ c) (Proc.devRef .tc main_v51) = _
  after_results_simp
  exact W4_arg m ρ c main_arg4 (by decide) (by decide) (by decide) (by decide)

/-! ## Region 2 and the stretch after it: the second product, aggregated -/

/-- Region 2 leaves the product of the hidden rows and the second weight matrix. -/
theorem t2 : W6 m ρ c (Proc.devRef .tc main_v52) = rows2 m c := by
  refine (W6_arr m ρ c 2).trans ((RegionDotHid.final (V5 m ρ) c).trans ?_)
  exact congrArg₂ dotHid (h1n m ρ c) (w2n m ρ c)

theorem src6 : W6 m ρ c (Proc.devRef .tc main_v1) = edgeSrc (argE m c) :=
  (W6_early m ρ c main_v1 (by decide) (by decide) (by decide) (by decide) (by decide)).trans (src1 m ρ c)
theorem dst6 : W6 m ρ c (Proc.devRef .tc main_v3) = edgeDst (argE m c) :=
  (W6_early m ρ c main_v3 (by decide) (by decide) (by decide) (by decide) (by decide)).trans (dst1 m ρ c)
theorem edge6 : W6 m ρ c (Proc.devRef .tc main_v31) = edgeCol (argE m c) :=
  (W6_early m ρ c main_v31 (by decide) (by decide) (by decide) (by decide) (by decide)).trans (edge1 m ρ c)

/-- The stretch after region 2 aggregates the second product's rows along the edges. -/
theorem agg2 : W7 m ρ c (Proc.devRef .tc main_v64) = agg (argE m c) (rows2 m c) := by
  show StableHlo.after hostOps3 (W6 m ρ c) (Proc.devRef .tc main_v64) = _
  after_results_simp
  rw [t2 m ρ c, src6 m ρ c, dst6 m ρ c, edge6 m ρ c]
  rfl

/-! ## Region 3 and the stretch after it: the second layer's end -/

theorem W7_arg5 : W7 m ρ c (Proc.devRef .tc main_arg5) = argB2 m c :=
  (W7_of m ρ c main_arg5 (by decide)).trans (W6_arg m ρ c main_arg5 (by decide) (by decide) (by decide) (by decide) (by decide) (by decide))

/-- Region 3 leaves the second layer's hidden rows. -/
theorem h2 : W8 m ρ c (Proc.devRef .tc main_v65) = hid2 m c := by
  refine (W8_arr m ρ c 4).trans ((RegionLayer2.final (V7 m ρ) c).trans ?_)
  show combine (W7 m ρ c (Proc.devRef .tc main_v64)) (W7 m ρ c (Proc.devRef .tc main_v52)) (W7 m ρ c (Proc.devRef .tc main_v33))
    (W7 m ρ c (Proc.devRef .tc main_arg5)) = _
  rw [agg2 m ρ c, (W7_of m ρ c main_v52 (by decide)).trans (t2 m ρ c), (W7_selfCol m ρ c).trans (self1 m ρ c), W7_arg5 m ρ c]
  rfl

theorem h2n : (W9 m ρ c (Proc.devRef .tc main_v66) : RA Cert.ReferenceIdeal.S100000x256) = hid2 m c := by
  show StableHlo.after hostOps4 (W8 m ρ c) (Proc.devRef .tc main_v66) = _
  after_results_simp
  exact h2 m ρ c

theorem wcn : (W9 m ρ c (Proc.devRef .tc main_v67) : RA Cert.ReferenceIdeal.S256x64) = argWc m c := by
  show StableHlo.after hostOps4 (W8 m ρ c) (Proc.devRef .tc main_v67) = _
  after_results_simp
  exact W8_arg m ρ c main_arg6 (by decide) (by decide) (by decide) (by decide) (by decide) (by decide) (by decide) (by decide)

theorem W9_arg7 : W9 m ρ c (Proc.devRef .tc main_arg7) = argBc m c :=
  (W9_of m ρ c main_arg7 (by decide)).trans
    (W8_arg m ρ c main_arg7 (by decide) (by decide) (by decide) (by decide) (by decide) (by decide) (by decide) (by decide))

/-! ## Region 4: the head -/

/-- THE RESULT: after the last region the result buffer holds the network of the specification applied to the
    argument arrays. -/
theorem value : W10 m ρ c (Proc.devRef .tc main_v68)
    = net (argX m c) (argE m c) (argW1 m c) (argB1 m c) (argW2 m c) (argB2 m c) (argWc m c) (argBc m c) := by
  refine (W10_arr m ρ c 3).trans ((RegionHead.final (V9 m ρ) c).trans ?_)
  show head (W9 m ρ c (Proc.devRef .tc main_v66)) (W9 m ρ c (Proc.devRef .tc main_v67)) (W9 m ρ c (Proc.devRef .tc main_arg7)) = _
  rw [h2n m ρ c, wcn m ρ c, W9_arg7 m ρ c]
  rfl

end Cert.KernelIdeal.Chain

end
-- ==== Proof.RefValue.lean ====
/-
  The reference program's result is the specification's network of its arguments.

  The reference is a straight line of host operations; its run ends with the result buffer at the operations' composed
  term of the argument arrays. That term takes the specification's steps in the specification's order — the edge lists,
  the degrees and the weights, then twice a product, an aggregation along the edges and a layer end, then the head — so
  it is the specification's network by unfolding.
-/
import proofs.«117510_j52836687675718_1_alg».proof.Proof.Gen.ReferenceIdeal.Run
import proofs.«117510_j52836687675718_1_alg».proof.Proof.Spec

noncomputable section

namespace Cert.ReferenceIdeal.RefValue

open Cert.ReferenceIdeal Cert.ReferenceIdeal.Gen Idealize.ShloMosaic Idealize.ShloMosaic.TcCoe Idealize.SL.Sem
open Cert.Gcn

variable (m : (ℓ : Loc nD τ sig) → Buf (Elt Ideal) ℓ) (c : Dev nD)

set_option maxRecDepth 16384 in
/-- The composed term of the reference's run is the network applied to the argument arrays. -/
theorem result_eq : Cert.ReferenceIdeal.Value.res_main_v78 (F := Ideal) m c
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  unfold Cert.ReferenceIdeal.Value.res_main_v78
  rfl

end Cert.ReferenceIdeal.RefValue

end
-- ==== Proof.lean ====
/-
  A two-layer graph-convolution network with a linear head, computed by a program of five tiled regions among stretches
  of host operations (three matrix-product regions on operands rounded to a narrower float format, two layer-end regions
  `max (agg + t · dinv² + b, 0)`; the degrees, the weights and the aggregations along the edges on the host), against a
  reference that is one straight line of host operations.

  Over the extended reals the two programs take the same steps in the same order: a change of float format is the
  identity, a tile of a matrix product into a zero accumulator is the tile of the whole product (the same sum over the
  contracted coordinate), and a tile of a layer end is the tile of the whole-array layer end (entry by entry the same
  sum, product and maximum). No law that needs finiteness is used. Proof/Spec.lean states the network as one function of
  the argument arrays; Proof/KernelValue.lean reads the kernel program's chain of boundary contents to that function
  (Proof/Region*.lean the five regions tile by tile, Proof/Keeps.lean what each step leaves unchanged, Proof/KernelRun.lean
  the run with the result named); Proof/RefValue.lean the reference's composed term. The three frames are the generated
  ones (the reference's its generated run with the result dropped); the idealization rewrote nothing, so `preserves` is
  trivial.
-/
import proofs.«117510_j52836687675718_1_alg».proof.Defs
import proofs.«117510_j52836687675718_1_alg».proof.Proof.Gen.Kernel
import proofs.«117510_j52836687675718_1_alg».proof.Proof.Gen.Kernel.Frame
import proofs.«117510_j52836687675718_1_alg».proof.Proof.Gen.KernelIdeal
import proofs.«117510_j52836687675718_1_alg».proof.Proof.Gen.KernelIdeal.Frame
import proofs.«117510_j52836687675718_1_alg».proof.Proof.Gen.ReferenceIdeal
import proofs.«117510_j52836687675718_1_alg».proof.Proof.Gen.Pre_finite_inputs
import proofs.«117510_j52836687675718_1_alg».proof.Proof.Gen.ReferenceIdeal.Run
import proofs.«117510_j52836687675718_1_alg».proof.Proof.Gen.ReferenceIdeal.Read
import proofs.«117510_j52836687675718_1_alg».proof.Proof.Spec
import proofs.«117510_j52836687675718_1_alg».proof.Proof.KernelRun
import proofs.«117510_j52836687675718_1_alg».proof.Proof.KernelValue
import proofs.«117510_j52836687675718_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's network of the argument arrays in their result buffer: the kernel
    program by its chain of boundary contents, the reference by its composed term; the arguments agree. -/
theorem algebraic : Cert.algebraic_KernelIdeal_ReferenceIdeal := by
  intro m ρ m' ρ' _ hagree
  refine ⟨fun c => Cert.Gcn.net (Cert.KernelIdeal.Chain.argX m c) (Cert.KernelIdeal.Chain.argE m c) (Cert.KernelIdeal.Chain.argW1 m c)
      (Cert.KernelIdeal.Chain.argB1 m c) (Cert.KernelIdeal.Chain.argW2 m c) (Cert.KernelIdeal.Chain.argB2 m c)
      (Cert.KernelIdeal.Chain.argWc m c) (Cert.KernelIdeal.Chain.argBc m c), ?_, ?_⟩
  · exact (θ_run Cert.KernelIdeal.defs _ _).mono
      (fun r h c => ⟨(h c).1.trans (Cert.KernelIdeal.Chain.value m ρ c), (h c).2⟩) (Cert.KernelIdeal.Run.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
